-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x2048 : Shape := ⟨3, ![64, 1024, 2048]⟩
abbrev S64x512 : Shape := ⟨2, ![64, 512]⟩
abbrev S2048x512 : Shape := ⟨2, ![2048, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩

class Facts : Prop where
  bcast_S_S64x1024x2048 : S_.BroadcastsInDim S64x1024x2048 (![] : Fin 0 → Fin S64x1024x2048.rank)
  reducesTo_S64x1024x2048_S_d0_1_2 : S64x1024x2048.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x1 .f32) (main_arg7 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x1 .f32 := Host.absf main_arg6
  let main_cst_10 : FVec F S_ .f32 := constant S_ .f32 0x7F800000#32
  let main_v30 : FVec F S512x1 .f32 := broadcastInDim S512x1 ![] bcast_S_S512x1 main_cst_10
  let main_v31 : IVec S512x1 1 := cmpf .olt main_v29 main_v30
  let main_c_11 : IVec S_ 1 := constantI S_ 1 1#1
  let main_v32 : IVec S_ 1 := (fun x v => Host.reduce IntOp.andi x v reducesTo_S512x1_S_d0_1 h_S_) main_v31 main_c_11
  let main_v33 : IVec S_ 1 := andi main_v28 main_v32
  fn_part2 (F := F) main_arg7 main_v33

def fn {F : FTy → Type} [FloatOps F] (main_arg0 : FVec F S64x1024x2048 .f32) (main_arg1 : FVec F S64x512 .f32) (main_arg2 : FVec F S2048x512 .f32) (main_arg3 : FVec F S512 .f32) (main_arg4 : FVec F S512x512 .f32) (main_arg5 : FVec F S512 .f32) (main_arg6 : FVec F S512x1 .f32) (main_arg7 : FVec F S1 .f32) : IVec S_ 1 :=
  let main_v0 : FVec F S64x1024x2048 .f32 := Host.absf main_arg0
  let main_cst : FVec F S_ .f32 := constant S_ .f32 0x7F800000#32
  let main_v1 : FVec F S64x1024x2048 .f32 := broadcastInDim S64x1024x2048 ![] bcast_S_S64x1024x2048 main_cst
  let main_v2 : IVec S64x1024x2048 1 := cmpf .olt main_v0 main_v1
  let main_c : IVec S_ 1 := constantI S_ 1 1#1
  let main_v3 : IVec S_ 1 := (fun x v => Host.reduce IntOp.andi x v reducesTo_S64x1024x2048_S_d0_1_2 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S64x1024x2048 : Shape := ⟨3, ![64, 1024, 2048]⟩
abbrev S64x512 : Shape := ⟨2, ![64, 512]⟩
abbrev S2048x512 : Shape := ⟨2, ![2048, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S1x512 : Shape := ⟨2, ![1, 512]⟩
abbrev S64x1x512 : Shape := ⟨3, ![64, 1, 512]⟩
abbrev S64x1x2048 : Shape := ⟨3, ![64, 1, 2048]⟩
abbrev S64x1x1024 : Shape := ⟨3, ![64, 1, 1024]⟩
abbrev S1x1024x2048 : Shape := ⟨3, ![1, 1024, 2048]⟩
abbrev S1x1x512 : Shape := ⟨3, ![1, 1, 512]⟩
abbrev S1x1x2048 : Shape := ⟨3, ![1, 1, 2048]⟩
abbrev S1x1x1024 : Shape := ⟨3, ![1, 1, 1024]⟩
abbrev S1024x2048 : Shape := ⟨2, ![1024, 2048]⟩
abbrev S1x1024 : Shape := ⟨2, ![1, 1024]⟩
abbrev S1x256x2048 : Shape := ⟨3, ![1, 256, 2048]⟩
abbrev S256x2048 : Shape := ⟨2, ![256, 2048]⟩
abbrev S256x512 : Shape := ⟨2, ![256, 512]⟩
abbrev S256x1 : Shape := ⟨2, ![256, 1]⟩
abbrev S1x256 : Shape := ⟨2, ![1, 256]⟩
abbrev S1x1 : Shape := ⟨2, ![1, 1]⟩
abbrev S1x2048 : Shape := ⟨2, ![1, 2048]⟩
abbrev S64x2048 : Shape := ⟨2, ![64, 2048]⟩
abbrev S64x1024x1 : Shape := ⟨3, ![64, 1024, 1]⟩

abbrev nBuf : Space → Nat
  | .hbm => 19
  | .vmem => 14
  | .smem => 0
  | _ => 0

abbrev bufTy : (tb : Table) → Fin (tcTables nBuf tb) → BufTy
  | .hbm, ⟨0, _⟩ => ⟨S64x1024x2048, .f32⟩
  | .hbm, ⟨1, _⟩ => ⟨S64x512, .f32⟩
  | .hbm, ⟨2, _⟩ => ⟨S2048x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S64x512, .f32⟩
  | .hbm, ⟨9, _⟩ => ⟨S1x512, .f32⟩
  | .hbm, ⟨10, _⟩ => ⟨S64x512, .f32⟩
  | .hbm, ⟨11, _⟩ => ⟨S64x512, .f32⟩
  | .hbm, ⟨12, _⟩ => ⟨S64x1x512, .f32⟩
  | .hbm, ⟨13, _⟩ => ⟨S2048x512, .bf16⟩
  | .hbm, ⟨14, _⟩ => ⟨S512x1, .bf16⟩
  | .hbm, ⟨15, _⟩ => ⟨S64x1x2048, .f32⟩
  | .hbm, ⟨16, _⟩ => ⟨S64x1x1024, .f32⟩
  | .hbm, ⟨17, _⟩ => ⟨S64x2048, .f32⟩
  | .hbm, ⟨18, _⟩ => ⟨S64x1024x1, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1x512, .f32⟩
  | .local _ .vmem, ⟨3, _⟩ => ⟨S1x1x512, .f32⟩
  | .local _ .vmem, ⟨4, _⟩ => ⟨S2048x512, .bf16⟩
  | .local _ .vmem, ⟨5, _⟩ => ⟨S512, .f32⟩
  | .local _ .vmem, ⟨6, _⟩ => ⟨S512x1, .bf16⟩
  | .local _ .vmem, ⟨7, _⟩ => ⟨S1, .f32⟩
  | .local _ .vmem, ⟨8, _⟩ => ⟨S1x1x2048, .f32⟩
  | .local _ .vmem, ⟨9, _⟩ => ⟨S1x1x2048, .f32⟩
  | .local _ .vmem, ⟨10, _⟩ => ⟨S1x1x1024, .f32⟩
  | .local _ .vmem, ⟨11, _⟩ => ⟨S1x1x1024, .f32⟩
  | .local _ .vmem, ⟨12, _⟩ => ⟨S1024x2048, .bf16⟩
  | .local _ .vmem, ⟨13, _⟩ => ⟨S1x1024, .f32⟩
  | _, _ => ⟨S64x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def k0_mult1 : BitVec 32 :=
  let c0_i32 : BitVec 32 := 0#32
  let c256_i32 : BitVec 32 := 256#32
  let v8 : BitVec 32 := Scalar.muli c0_i32 c256_i32
  v8
def k0_off1 (c0_i32 : BitVec 32) : Fin 3 → Nat :=
  let c0_8 : Index := 0#32
  let c256_i32 : BitVec 32 := 256#32
  let v8 : BitVec 32 := Scalar.muli c0_i32 c256_i32
  let v9 : BitVec 32 := v8
  let v10 : Index := Scalar.indexCast v9
  let c0_9 : Index := 0#32
  ![0, v10.toNat, 0]
def k0_off2 (c0_i32 : BitVec 32) : Fin 2 → Nat :=
  let c256_i32 : BitVec 32 := 256#32
  let v8 : BitVec 32 := Scalar.muli c0_i32 c256_i32
  let v9 : BitVec 32 := v8
  let v14 : Index := Scalar.indexCast v9
  let c0_10 : Index := 0#32
  ![v14.toNat, 0]
def k0_off3 (c0_i32 : BitVec 32) : Fin 2 → Nat :=
  let c0_12 : Index := 0#32
  let c256_i32 : BitVec 32 := 256#32
  let v8 : BitVec 32 := Scalar.muli c0_i32 c256_i32
  let v9 : BitVec 32 := v8
  let v28 : Index := Scalar.indexCast v9
  ![0, v28.toNat]
def k0_mult2 : BitVec 32 :=
  let c1_i32 : BitVec 32 := 1#32
  let c256_i32_13 : BitVec 32 := 256#32
  let v32 : BitVec 32 := Scalar.muli c1_i32 c256_i32_13
  v32
def k0_mult3 : BitVec 32 :=
  let c2_i32 : BitVec 32 := 2#32
  let c256_i32_20 : BitVec 32 := 256#32
  let v56 : BitVec 32 := Scalar.muli c2_i32 c256_i32_20
  v56
def k0_mult4 : BitVec 32 :=
  let c3_i32 : BitVec 32 := 3#32
  let c256_i32_27 : BitVec 32 := 256#32
  let v80 : BitVec 32 := Scalar.muli c3_i32 c256_i32_27
  v80
def k0_mult5 : BitVec 32 :=
  let c0_i32_44 : BitVec 32 := 0#32
  let c256_i32_45 : BitVec 32 := 256#32
  let v124 : BitVec 32 := Scalar.muli c0_i32_44 c256_i32_45
  v124
def k0_mult6 : BitVec 32 :=
  let c1_i32_49 : BitVec 32 := 1#32
  let c256_i32_50 : BitVec 32 := 256#32
  let v133 : BitVec 32 := Scalar.muli c1_i32_49 c256_i32_50
  v133
def k0_mult7 : BitVec 32 :=
  let c2_i32_54 : BitVec 32 := 2#32
  let c256_i32_55 : BitVec 32 := 256#32
  let v142 : BitVec 32 := Scalar.muli c2_i32_54 c256_i32_55
  v142
def k0_mult8 : BitVec 32 :=
  let c3_i32_59 : BitVec 32 := 3#32
  let c256_i32_60 : BitVec 32 := 256#32
  let v151 : BitVec 32 := Scalar.muli c3_i32_59 c256_i32_60
  v151
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S64x512_S64x1x512_0_2 : S64x512.BroadcastsInDim S64x1x512 (![0, 2] : Fin 2 → Fin S64x1x512.rank)
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512_S512_0 : ∀ a, (![0] : Fin 1 → Nat) a + S512.size a ≤ S512.size a
  h_S512 : 0 < S512.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1_S1_0 : ∀ a, (![0] : Fin 1 → Nat) a + S1.size a ≤ S1.size a
  h_S1 : 0 < S1.numel
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  h_S1x256x2048 : 0 < S1x256x2048.numel
  shapeCasts_S1x256x2048_S256x2048 : S1x256x2048.ShapeCasts S256x2048
  h_S256x2048 : 0 < S256x2048.numel
  shapeCasts_S256x2048_S256x2048 : S256x2048.ShapeCasts S256x2048
  shapeCasts_S512_S1x512 : S512.ShapeCasts S1x512
  broadcasts_S1x512_S256x512 : S1x512.Broadcasts S256x512
  transposes_S256x1_p1_0_S1x256 : S256x1.Transposes [1, 0] S1x256
  h_S1x256 : 0 < S1x256.numel
  shapeCasts_S1x256_S1x256 : S1x256.ShapeCasts S1x256
  inb_S1x1024_S1x1024_0_0 : ∀ a, (![0, 0] : Fin 2 → Nat) a + S1x1024.size a ≤ S1x1024.size a
  h_S1x1024 : 0 < S1x1024.numel
  shapeCasts_S1_S1x1 : S1.ShapeCasts S1x1
  broadcasts_S1x1_S1x1024 : S1x1.Broadcasts S1x1024
  reduces_S1x1024_S1 : S1x1024.Reduces [1] S1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S1x1024_S1x1024 : S1x1024.ShapeCasts S1x1024
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  shapeCasts_S64x1x2048_S64x2048 : S64x1x2048.ShapeCasts S64x2048
  transposes_S64x1x1024_S64x1024x1_0_2_1 : S64x1x1024.Transposes [0, 2, 1] S64x1024x1
  dot_S64x512_S512x512_S64x512_1_0_0_1_n_n_wf : DotDims.WF S64x512 S512x512 S64x512 [1] [0] [0] [1] [] []
  dot_S256x2048_S2048x512_S256x512_1_0_0_1_n_n_wf : DotDims.WF S256x2048 S2048x512 S256x512 [1] [0] [0] [1] [] []
  dot_S256x512_S512x1_S256x1_1_0_0_1_n_n_wf : DotDims.WF S256x512 S512x1 S256x1 [1] [0] [0] [1] [] []
  dot_S1x256_S256x2048_S1x2048_1_0_0_1_n_n_wf : DotDims.WF S1x256 S256x2048 S1x2048 [1] [0] [0] [1] [] []
  hrank0 : 0 < grid0.rank
  k0_mult1_dvd : 256 ∣ k0_mult1.toNat
  k0_off1_inb : ∀ (r : Fin 4), ∀ a, (k0_off1 (BitVec.ofNat 32 r.val)) a + S1x256x2048.size a ≤ S1x1024x2048.size a
  k0_off2_inb : ∀ (r : Fin 4), ∀ a, (k0_off2 (BitVec.ofNat 32 r.val)) a + S256x2048.size a ≤ S1024x2048.size a
  k0_off2_packedbf16 : ∀ (r : Fin 4), (Rect.unit (s := S1024x2048) (k0_off2 (BitVec.ofNat 32 r.val)) S256x2048.size (k0_off2_inb r)).PackedRows (EltTy.packing .bf16)
  k0_off3_inb : ∀ (r : Fin 4), ∀ a, (k0_off3 (BitVec.ofNat 32 r.val)) a + S1x256.size a ≤ S1x1024.size a
  k0_mult2_dvd : 256 ∣ k0_mult2.toNat
  k0_mult3_dvd : 256 ∣ k0_mult3.toNat
  k0_mult4_dvd : 256 ∣ k0_mult4.toNat
  k0_mult5_dvd : 256 ∣ k0_mult5.toNat
  k0_mult6_dvd : 256 ∣ k0_mult6.toNat
  k0_mult7_dvd : 256 ∣ k0_mult7.toNat
  k0_mult8_dvd : 256 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S64x1024x2048.size a
  hwx0_0 : ∀ i : grid0.Coords, EltTy.bits .f32 = 32 ∨ (Rect.block (s := S64x1024x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S64x1x512.size a
  hwx0_1 : ∀ i : grid0.Coords, EltTy.bits .f32 = 32 ∨ (Rect.block (s := S64x1x512) S1x1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x512.size a
  hwx0_2 : ∀ i : grid0.Coords, EltTy.bits .bf16 = 32 ∨ (Rect.block (s := S2048x512) S2048x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S512x1.size a
  hwx0_4 : ∀ i : grid0.Coords, EltTy.bits .bf16 = 32 ∨ (Rect.block (s := S512x1) S512x1.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x2048.size a ≤ S64x1x2048.size a
  hwx0_6 : ∀ i : grid0.Coords, EltTy.bits .f32 = 32 ∨ (Rect.block (s := S64x1x2048) S1x1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1024.size a ≤ S64x1x1024.size a
  hwx0_7 : ∀ i : grid0.Coords, EltTy.bits .f32 = 32 ∨ (Rect.block (s := S64x1x1024) S1x1x1024.size (cc0_transform_7 i) (hinb0_7 i)).WholeWords (EltTy.packing .f32)

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x512_S512x1_S256x1_1_0_0_1_n_n : DotDims S256x512 S512x1 S256x1 where
  lhsContracting := [1]
  rhsContracting := [0]
  lhsNonContracting := [0]
  rhsNonContracting := [1]
  lhsBatch := []
  rhsBatch := []
  wf := dot_S256x512_S512x1_S256x1_1_0_0_1_n_n_wf
def dot_S1x256_S256x2048_S1x2048_1_0_0_1_n_n : DotDims S1x256 S256x2048 S1x2048 where
  lhsContracting := [1]
  rhsContracting := [0]
  lhsNonContracting := [0]
  rhsNonContracting := [1]
  lhsBatch := []
  rhsBatch := []
  wf := dot_S1x256_S256x2048_S1x2048_1_0_0_1_n_n_wf

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2048x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S1x1x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S1x1x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x1024x2048 : Shape := ⟨3, ![64, 1024, 2048]⟩
abbrev S64x512 : Shape := ⟨2, ![64, 512]⟩
abbrev S2048x512 : Shape := ⟨2, ![2048, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S64x1024x512 : Shape := ⟨3, ![64, 1024, 512]⟩
abbrev S1x1x512 : Shape := ⟨3, ![1, 1, 512]⟩
abbrev S1x512 : Shape := ⟨2, ![1, 512]⟩
abbrev S64x1x512 : Shape := ⟨3, ![64, 1, 512]⟩
abbrev S64x1024x1 : Shape := ⟨3, ![64, 1024, 1]⟩
abbrev S1x1x1 : Shape := ⟨3, ![1, 1, 1]⟩
abbrev S_ : Shape := ⟨0, ![]⟩
abbrev S64x1 : Shape := ⟨2, ![64, 1]⟩
abbrev S64x1x1 : Shape := ⟨3, ![64, 1, 1]⟩
abbrev S64x2048 : Shape := ⟨2, ![64, 2048]⟩

abbrev nBuf : Space → Nat
  | .hbm => 42
  | .vmem => 0
  | .smem => 0
  | _ => 0

abbrev bufTy : (tb : Table) → Fin (tcTables nBuf tb) → BufTy
  | .hbm, ⟨0, _⟩ => ⟨S64x1024x2048, .f32⟩
  | .hbm, ⟨1, _⟩ => ⟨S64x512, .f32⟩
  | .hbm, ⟨2, _⟩ => ⟨S2048x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S64x1024x512, .f32⟩
  | .hbm, ⟨9, _⟩ => ⟨S1x1x512, .f32⟩
  | .hbm, ⟨10, _⟩ => ⟨S64x1024x512, .f32⟩
  | .hbm, ⟨11, _⟩ => ⟨S64x1024x512, .f32⟩
  | .hbm, ⟨12, _⟩ => ⟨S64x512, .f32⟩
  | .hbm, ⟨13, _⟩ => ⟨S1x512, .f32⟩
  | .hbm, ⟨14, _⟩ => ⟨S64x512, .f32⟩
  | .hbm, ⟨15, _⟩ => ⟨S64x512, .f32⟩
  | .hbm, ⟨16, _⟩ => ⟨S64x1x512, .f32⟩
  | .hbm, ⟨17, _⟩ => ⟨S64x1024x512, .f32⟩
  | .hbm, ⟨18, _⟩ => ⟨S64x1024x512, .f32⟩
  | .hbm, ⟨19, _⟩ => ⟨S64x1024x512, .f32⟩
  | .hbm, ⟨20, _⟩ => ⟨S64x1024x1, .f32⟩
  | .hbm, ⟨21, _⟩ => ⟨S1x1x1, .f32⟩
  | .hbm, ⟨22, _⟩ => ⟨S64x1024x1, .f32⟩
  | .hbm, ⟨23, _⟩ => ⟨S64x1024x1, .f32⟩
  | .hbm, ⟨24, _⟩ => ⟨S_, .f32⟩
  | .hbm, ⟨25, _⟩ => ⟨S64x1, .f32⟩
  | .hbm, ⟨26, _⟩ => ⟨S_, .f32⟩
  | .hbm, ⟨27, _⟩ => ⟨S64x1, .f32⟩
  | .hbm, ⟨28, _⟩ => ⟨S64x1, .f32⟩
  | .hbm, ⟨29, _⟩ => ⟨S64x1x1, .f32⟩
  | .hbm, ⟨30, _⟩ => ⟨S64x1024x1, .f32⟩
  | .hbm, ⟨31, _⟩ => ⟨S64x1024x1, .f32⟩
  | .hbm, ⟨32, _⟩ => ⟨S64x1024x1, .f32⟩
  | .hbm, ⟨33, _⟩ => ⟨S_, .f32⟩
  | .hbm, ⟨34, _⟩ => ⟨S64x1, .f32⟩
  | .hbm, ⟨35, _⟩ => ⟨S64x1x1, .f32⟩
  | .hbm, ⟨36, _⟩ => ⟨S64x1024x1, .f32⟩
  | .hbm, ⟨37, _⟩ => ⟨S64x1024x1, .f32⟩
  | .hbm, ⟨38, _⟩ => ⟨S64x1024x2048, .f32⟩
  | .hbm, ⟨39, _⟩ => ⟨S64x1024x2048, .f32⟩
  | .hbm, ⟨40, _⟩ => ⟨S_, .f32⟩
  | .hbm, ⟨41, _⟩ => ⟨S64x2048, .f32⟩
  | _, _ => ⟨S64x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S64x1024x512_0_1_2 : S1x1x512.BroadcastsInDim S64x1024x512 (![0, 1, 2] : Fin 3 → Fin S64x1024x512.rank)
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S64x512_S64x1x512_0_2 : S64x512.BroadcastsInDim S64x1x512 (![0, 2] : Fin 2 → Fin S64x1x512.rank)
  bcast_S64x1x512_S64x1024x512_0_1_2 : S64x1x512.BroadcastsInDim S64x1024x512 (![0, 1, 2] : Fin 3 → Fin S64x1024x512.rank)
  bcast_S1_S1x1x1_2 : S1.BroadcastsInDim S1x1x1 (![2] : Fin 1 → Fin S1x1x1.rank)
  bcast_S1x1x1_S64x1024x1_0_1_2 : S1x1x1.BroadcastsInDim S64x1024x1 (![0, 1, 2] : Fin 3 → Fin S64x1024x1.rank)
  reducesTo_S64x1024x1_S64x1_d1 : S64x1024x1.ReducesTo [1] S64x1
  h_S_ : 0 < S_.numel
  bcast_S_S64x1 : S_.BroadcastsInDim S64x1 (![] : Fin 0 → Fin S64x1.rank)
  bcast_S64x1_S64x1x1_0_2 : S64x1.BroadcastsInDim S64x1x1 (![0, 2] : Fin 2 → Fin S64x1x1.rank)
  bcast_S64x1x1_S64x1024x1_0_1_2 : S64x1x1.BroadcastsInDim S64x1024x1 (![0, 1, 2] : Fin 3 → Fin S64x1024x1.rank)
  bcast_S64x1024x1_S64x1024x2048_0_1_2 : S64x1024x1.BroadcastsInDim S64x1024x2048 (![0, 1, 2] : Fin 3 → Fin S64x1024x2048.rank)
  reducesTo_S64x1024x2048_S64x2048_d1 : S64x1024x2048.ReducesTo [1] S64x2048
  dot_S64x1024x2048_S2048x512_S64x1024x512_2_0_01_1_n_n_wf : DotDims.WF S64x1024x2048 S2048x512 S64x1024x512 [2] [0] [0, 1] [1] [] []
  dot_S64x512_S512x512_S64x512_1_0_0_1_n_n_wf : DotDims.WF S64x512 S512x512 S64x512 [1] [0] [0] [1] [] []
  dot_S64x1024x512_S512x1_S64x1024x1_2_0_01_1_n_n_wf : DotDims.WF S64x1024x512 S512x1 S64x1024x1 [2] [0] [0, 1] [1] [] []

variable [Facts₀]

def dot_S64x1024x2048_S2048x512_S64x1024x512_2_0_01_1_n_n : DotDims S64x1024x2048 S2048x512 S64x1024x512 where
  lhsContracting := [2]
  rhsContracting := [0]
  lhsNonContracting := [0, 1]
  rhsNonContracting := [1]
  lhsBatch := []
  rhsBatch := []
  wf := dot_S64x1024x2048_S2048x512_S64x1024x512_2_0_01_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x1024x512_S512x1_S64x1024x1_2_0_01_1_n_n : DotDims S64x1024x512 S512x1 S64x1024x1 where
  lhsContracting := [2]
  rhsContracting := [0]
  lhsNonContracting := [0, 1]
  rhsNonContracting := [1]
  lhsBatch := []
  rhsBatch := []
  wf := dot_S64x1024x512_S512x1_S64x1024x1_2_0_01_1_n_n_wf

class Facts : Prop extends Facts₀ where

variable [Facts]
-- ==== Proof.Spec.lean ====
/-
  Additive attention over one batch of 1024 positions, as plain functions on the extended reals.

  For a batch with feature rows `f l : Fin 2048 → EReal` and projected decoder state `ph`:
    score l   = (∑ a, tanh ((∑ e, f l e · W1 e a) + b1 a + ph a) · v a) + bv
    top       = the maximum of the scores (a fold of `max` from the value of the pattern of −∞)
    weight l  = exp (score l − top) / ∑ k, exp (score k − top)
    context e = ∑ l, weight l · f l e
  and the whole-array forms over the eight argument arrays. Also here: the two laws that let two different
  arrangements of these formulas meet — a sum over 1024 positions is the chain of four sums over 256 consecutive
  positions started from zero (only associativity of `+` and `0 + x = x`: no finiteness is needed), and taking the
  maximum of a fold of `max` with the fold's own starting value changes nothing.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The value the pattern of −∞ denotes; the folds of `max` start from it. It is never evaluated. -/
abbrev negInf : EReal := Ideal.ofBits .f32 0xFF800000#32

/-- The decoder state's projection, `(hidden · W2 + b2)` at batch `b`, unit `a`. -/
def projH (hid : (⟨2, ![64, 512]⟩ : Shape).Idx → EReal) (W2 : (⟨2, ![512, 512]⟩ : Shape).Idx → EReal)
    (b2 : (⟨1, ![512]⟩ : Shape).Idx → EReal) (b : Fin 64) (a : Fin 512) : EReal :=
  (∑ k : Fin 512, hid (ix2 b k) * W2 (ix2 k a)) + b2 (ix1 a)

/-- The score of position `l` before the output bias is added. -/
def preScore (f : Fin 1024 → Fin 2048 → EReal) (ph : Fin 512 → EReal) (W1 : Fin 2048 → Fin 512 → EReal)
    (b1 v : Fin 512 → EReal) (l : Fin 1024) : EReal :=
  ∑ a : Fin 512, Ideal.tanh (((∑ e : Fin 2048, f l e * W1 e a) + b1 a) + ph a) * v a

/-- The score of position `l`. -/
def score (f : Fin 1024 → Fin 2048 → EReal) (ph : Fin 512 → EReal) (W1 : Fin 2048 → Fin 512 → EReal)
    (b1 v : Fin 512 → EReal) (bv : EReal) (l : Fin 1024) : EReal :=
  preScore f ph W1 b1 v l + bv

/-- The largest score. -/
def top (s : Fin 1024 → EReal) : EReal := (Finset.univ : Finset (Fin 1024)).fold max negInf s

/-- The softmax weight of position `l`. -/
def weight (s : Fin 1024 → EReal) (l : Fin 1024) : EReal :=
  Ideal.div (Ideal.exp (s l - top s)) (∑ k : Fin 1024, Ideal.exp (s k - top s))

/-- The weighted sum of the feature rows, at feature `e`. -/
def context (w : Fin 1024 → EReal) (f : Fin 1024 → Fin 2048 → EReal) (e : Fin 2048) : EReal :=
  ∑ l : Fin 1024, w l * f l e

section Arrays

variable (feat : (⟨3, ![64, 1024, 2048]⟩ : Shape).Idx → EReal) (hid : (⟨2, ![64, 512]⟩ : Shape).Idx → EReal)
  (W1 : (⟨2, ![2048, 512]⟩ : Shape).Idx → EReal) (b1 : (⟨1, ![512]⟩ : Shape).Idx → EReal)
  (W2 : (⟨2, ![512, 512]⟩ : Shape).Idx → EReal) (b2 : (⟨1, ![512]⟩ : Shape).Idx → EReal)
  (V : (⟨2, ![512, 1]⟩ : Shape).Idx → EReal) (bv : (⟨1, ![1]⟩ : Shape).Idx → EReal)

/-- The scores of batch `b`, from the argument arrays. -/
def scores (b : Fin 64) : Fin 1024 → EReal :=
  score (fun l e => feat (ix3 b l e)) (projH hid W2 b2 b) (fun e a => W1 (ix2 e a)) (fun a => b1 (ix1 a))
    (fun a => V (ix2 a (0 : Fin 1))) (bv (ix1 (0 : Fin 1)))

/-- The attention weights, `[64, 1024]`. -/
def weights (b : Fin 64) (l : Fin 1024) : EReal := weight (scores feat hid W1 b1 W2 b2 V bv b) l

/-- The context vectors, `[64, 2048]`. -/
def contexts (b : Fin 64) (e : Fin 2048) : EReal :=
  context (weights feat hid W1 b1 W2 b2 V bv b) (fun l e => feat (ix3 b l e)) e

end Arrays

/-! ## Four chunks of 256 positions -/

/-- Position `j` of chunk `k`: `256 k + j`. -/
def chunkIx (k : Fin 4) (j : Fin 256) : Fin 1024 := finProdFinEquiv (k, j)

theorem chunkIx_val (k : Fin 4) (j : Fin 256) : (chunkIx k j).val = j.val + 256 * k.val := rfl

/-- A sum over the 1024 positions is the sum over the chunks of the sums inside each. -/
theorem sum_chunks {M : Type} [AddCommMonoid M] (g : Fin 1024 → M) :
    ∑ l : Fin 1024, g l = ∑ k : Fin 4, ∑ j : Fin 256, g (chunkIx k j) := by
  have h := Equiv.sum_comp (finProdFinEquiv (m := 4) (n := 256)) g
  rw [Fintype.sum_prod_type] at h
  exact h.symm

/-- The chain a chunked accumulation computes, started from zero, is the sum over all 1024 positions. -/
theorem chain_eq_sum (g : Fin 1024 → EReal) :
    ((((0 : EReal) + ∑ j : Fin 256, g (chunkIx 0 j)) + ∑ j : Fin 256, g (chunkIx 1 j)) + ∑ j : Fin 256, g (chunkIx 2 j))
      + ∑ j : Fin 256, g (chunkIx 3 j) = ∑ l : Fin 1024, g l := by
  rw [sum_chunks, Fin.sum_univ_four, zero_add]

/-- A fold of `max` is at least its starting value, so the maximum of the two is the fold. -/
theorem max_init_fold {ι : Type} (S : Finset ι) (b : EReal) (s : ι → EReal) :
    max b (S.fold max b s) = S.fold max b s :=
  max_eq_right ((Finset.le_fold_max b).mpr (Or.inl le_rfl))

end Cert.Attn

end
-- ==== Proof.RefRead.lean ====
/-
  The reference program's run and its stages read at an index (both generated) are brought in here;
  the lemmas identifying the reference's result arrays with the attention specification follow below.
-/
import proofs.«115363_j63144609185923_2_alg».proof.Defs
import proofs.«115363_j63144609185923_2_alg».proof.Proof.Gen.ReferenceIdeal.Run
import proofs.«115363_j63144609185923_2_alg».proof.Proof.Gen.ReferenceIdeal.Read
import proofs.«115363_j63144609185923_2_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S64x1024x2048, .f32⟩ : BufTy).Contents (Elt Ideal)) (x1 : (⟨S64x512, .f32⟩ : BufTy).Contents (Elt Ideal))
  (x2 : (⟨S2048x512, .f32⟩ : BufTy).Contents (Elt Ideal)) (x3 : (⟨S512, .f32⟩ : BufTy).Contents (Elt Ideal))
  (x4 : (⟨S512x512, .f32⟩ : BufTy).Contents (Elt Ideal)) (x5 : (⟨S512, .f32⟩ : BufTy).Contents (Elt Ideal))
  (x6 : (⟨S512x1, .f32⟩ : BufTy).Contents (Elt Ideal)) (x7 : (⟨S1, .f32⟩ : BufTy).Contents (Elt Ideal))

/-! ## Indices: the composed index maps of the stages, at coordinates -/

theorem lidx12 (b : Fin 64) (l : Fin 1024) (o : Fin 1) (k : Fin 512) : lidx_main_v12 (ix3 b l o) k = ix3 b l k :=
  funext fun a => by match a with | ⟨0, _⟩ => rfl | ⟨1, _⟩ => rfl | ⟨2, _⟩ => rfl
theorem ridx12 (b : Fin 64) (l : Fin 1024) (o : Fin 1) (k : Fin 512) : ridx_main_v12 (ix3 b l o) k = ix2 k (0 : Fin 1) :=
  funext fun a => by match a with | ⟨0, _⟩ => rfl | ⟨1, _⟩ => exact Fin.ext (Nat.lt_one_iff.mp o.isLt)
theorem lidx0 (b : Fin 64) (l : Fin 1024) (a : Fin 512) (e : Fin 2048) : lidx_main_v0 (ix3 b l a) e = ix3 b l e :=
  funext fun c => by match c with | ⟨0, _⟩ => rfl | ⟨1, _⟩ => rfl | ⟨2, _⟩ => rfl
theorem ridx0 (b : Fin 64) (l : Fin 1024) (a : Fin 512) (e : Fin 2048) : ridx_main_v0 (ix3 b l a) e = ix2 e a :=
  funext fun c => by match c with | ⟨0, _⟩ => rfl | ⟨1, _⟩ => rfl
theorem idx21 (b : Fin 64) (l : Fin 1024) (a : Fin 512) : idx_main_v1 (idx_main_v2 (ix3 b l a)) = ix1 a :=
  funext fun c => by match c with | ⟨0, _⟩ => rfl
theorem idx98 (b : Fin 64) (l : Fin 1024) (a : Fin 512) : idx_main_v8 (idx_main_v9 (ix3 b l a)) = ix2 b a :=
  funext fun c => by match c with | ⟨0, _⟩ => rfl | ⟨1, _⟩ => rfl
theorem lidx4 (b : Fin 64) (a : Fin 512) (k : Fin 512) : lidx_main_v4 (ix2 b a) k = ix2 b k :=
  funext fun c => by match c with | ⟨0, _⟩ => rfl | ⟨1, _⟩ => rfl
theorem ridx4 (b : Fin 64) (a : Fin 512) (k : Fin 512) : ridx_main_v4 (ix2 b a) k = ix2 k a :=
  funext fun c => by match c with | ⟨0, _⟩ => rfl | ⟨1, _⟩ => rfl
theorem idx65 (b : Fin 64) (a : Fin 512) : idx_main_v5 (idx_main_v6 (ix2 b a)) = ix1 a :=
  funext fun c => by match c with | ⟨0, _⟩ => rfl
theorem idx1413 (i : S64x1024x1.Idx) : idx_main_v13 (idx_main_v14 i) = ix1 (0 : Fin 1) :=
  funext fun c => by match c with | ⟨0, _⟩ => rfl

/-! ## The scores -/

/-- Stage 15 at batch `b`, position `l` is the score of that position. -/
theorem scores_eq (b : Fin 64) (l : Fin 1024) (o : Fin 1) :
    val_main_v15 (F := Ideal) x0 x1 x2 x3 x4 x5 x6 x7 (ix3 b l o) = Cert.Attn.scores x0 x1 x2 x3 x4 x5 x6 x7 b l := by
  simp only [val_main_v15_apply, val_main_v12_apply, val_main_v11_apply, val_main_v10_apply, val_main_v3_apply,
    val_main_v0_apply, val_main_v2_apply, val_main_v1_apply, val_main_v9_apply, val_main_v8_apply, val_main_v7_apply,
    val_main_v4_apply, val_main_v6_apply, val_main_v5_apply, val_main_v14_apply, val_main_v13_apply,
    lidx12, ridx12, lidx0, ridx0, idx21, idx98, lidx4, ridx4, idx65, idx1413,
    Ideal.addf_def, Ideal.hostUnary_tanh_def]
  rfl

/-! ## The largest score: the max-reduce over positions, read as a fold -/

/-- The shape fact the fold's index map is defined from. -/
theorem reduces_pos : S64x1024x1.Reduces [1] S64x1 := by decide

/-- A reduced index with position `k` put back. -/
theorem lift_pos (b : Fin 64) (o : Fin 1) (k : Fin 1024) :
    reduces_pos.lift (ix2 b o) k = ix3 b k (0 : Fin 1) := by
  funext c; apply Fin.ext
  match c with
  | ⟨0, _⟩ => rfl
  | ⟨1, _⟩ => rfl
  | ⟨2, _⟩ => exact Nat.lt_one_iff.mp o.isLt

/-- Stage 16, the maximum over positions started from the pattern of −∞, is the fold of `max` over the scores. -/
theorem v16_eq (b : Fin 64) (o : Fin 1) :
    val_main_v16 (F := Ideal) x0 x1 x2 x3 x4 x5 x6 x7 (ix2 b o)
      = Cert.Attn.top (Cert.Attn.scores x0 x1 x2 x3 x4 x5 x6 x7 b) := by
  unfold val_main_v16
  rw [Host.reduce_eq_fold_single FloatOps.maximumf _ _ reducesTo_S64x1024x1_S64x1_d1 reduces_pos h_S_]
  have hf : (val_main_v15 (F := Ideal) x0 x1 x2 x3 x4 x5 x6 x7 ∘ reduces_pos.lift (ix2 b o))
      = Cert.Attn.scores x0 x1 x2 x3 x4 x5 x6 x7 b :=
    funext fun (k : Fin 1024) =>
      (congrArg (val_main_v15 (F := Ideal) x0 x1 x2 x3 x4 x5 x6 x7) (lift_pos b o k)).trans
        (scores_eq x0 x1 x2 x3 x4 x5 x6 x7 b k 0)
  rw [hf]
  rfl

/-- Stage 18 takes the maximum of the fold with the fold's own starting value: nothing changes. -/
theorem top_eq (b : Fin 64) (o : Fin 1) :
    val_main_v18 (F := Ideal) x0 x1 x2 x3 x4 x5 x6 x7 (ix2 b o)
      = Cert.Attn.top (Cert.Attn.scores x0 x1 x2 x3 x4 x5 x6 x7 b) := by
  rw [val_main_v18_apply, v16_eq, val_main_v17_apply, val_main_cst_0_apply, Ideal.maximumf_def, Ideal.ofBits_def]
  exact Cert.Attn.max_init_fold _ _ _

/-! ## The weights -/

theorem idx2019 (b : Fin 64) (l : Fin 1024) (o : Fin 1) : idx_main_v19 (idx_main_v20 (ix3 b l o)) = ix2 b (0 : Fin 1) :=
  funext fun c => by match c with | ⟨0, _⟩ => rfl | ⟨1, _⟩ => rfl
theorem idx2524 (b : Fin 64) (l : Fin 1024) (o : Fin 1) : idx_main_v24 (idx_main_v25 (ix3 b l o)) = ix2 b (0 : Fin 1) :=
  funext fun c => by match c with | ⟨0, _⟩ => rfl | ⟨1, _⟩ => rfl
theorem idx23 (b : Fin 64) (o : Fin 1) (k : Fin 1024) : idx_main_v23 (ix2 b o) k = ix3 b k o :=
  funext fun c => by match c with | ⟨0, _⟩ => rfl | ⟨1, _⟩ => rfl | ⟨2, _⟩ => rfl

/-- Stage 22: the exponential of a score less the largest. -/
theorem exp_eq (b : Fin 64) (l : Fin 1024) (o : Fin 1) :
    val_main_v22 (F := Ideal) x0 x1 x2 x3 x4 x5 x6 x7 (ix3 b l o)
      = Ideal.exp (Cert.Attn.scores x0 x1 x2 x3 x4 x5 x6 x7 b l
          - Cert.Attn.top (Cert.Attn.scores x0 x1 x2 x3 x4 x5 x6 x7 b)) := by
  rw [val_main_v22_apply, val_main_v21_apply, val_main_v20_apply, val_main_v19_apply, idx2019, top_eq, scores_eq,
    Ideal.hostUnary_exp_def, Ideal.subf_def]

/-- Stage 23: the sum of the exponentials over the positions (the float sum starts from zero). -/
theorem denom_eq (b : Fin 64) (o : Fin 1) :
    val_main_v23 (F := Ideal) x0 x1 x2 x3 x4 x5 x6 x7 (ix2 b o)
      = ∑ k : Fin 1024, Ideal.exp (Cert.Attn.scores x0 x1 x2 x3 x4 x5 x6 x7 b k
          - Cert.Attn.top (Cert.Attn.scores x0 x1 x2 x3 x4 x5 x6 x7 b)) := by
  rw [val_main_v23_apply, val_main_cst_1_apply, Ideal.ofBits_def, Ideal.ofBits_zero_f32, zero_add]
  exact Finset.sum_congr rfl fun k _ => by rw [idx23, exp_eq]

/-- Stage 26 at batch `b`, position `l` is the softmax weight. -/
theorem weights_ix (b : Fin 64) (l : Fin 1024) (o : Fin 1) :
    val_main_v26 (F := Ideal) x0 x1 x2 x3 x4 x5 x6 x7 (ix3 b l o) = Cert.Attn.weights x0 x1 x2 x3 x4 x5 x6 x7 b l := by
  rw [val_main_v26_apply, val_main_v25_apply, val_main_v24_apply, idx2524, denom_eq, exp_eq, Ideal.hostDivf_def]
  rfl

/-- The reference's second result, the attention weights, is the specification's. -/
theorem weights_eq (i : S64x1024x1.Idx) :
    val_main_v26 (F := Ideal) x0 x1 x2 x3 x4 x5 x6 x7 i = Cert.Attn.weights x0 x1 x2 x3 x4 x5 x6 x7 (i 0) (i 1) := by
  have hi : i = ix3 (i 0) (i 1) (i 2) := eq_ix3 i
  rw [congrArg (val_main_v26 (F := Ideal) x0 x1 x2 x3 x4 x5 x6 x7) hi]
  exact weights_ix x0 x1 x2 x3 x4 x5 x6 x7 (i 0) (i 1) (i 2)

/-! ## The contexts -/

theorem idx29 (b : Fin 64) (e : Fin 2048) (k : Fin 1024) : idx_main_v29 (ix2 b e) k = ix3 b k e :=
  funext fun c => by match c with | ⟨0, _⟩ => rfl | ⟨1, _⟩ => rfl | ⟨2, _⟩ => rfl
theorem idx27 (b : Fin 64) (k : Fin 1024) (e : Fin 2048) : idx_main_v27 (ix3 b k e) = ix3 b k (0 : Fin 1) :=
  funext fun c => by match c with | ⟨0, _⟩ => rfl | ⟨1, _⟩ => rfl | ⟨2, _⟩ => rfl

/-- Stage 29 at batch `b`, feature `e` is the weighted sum of the feature rows. -/
theorem contexts_ix (b : Fin 64) (e : Fin 2048) :
    val_main_v29 (F := Ideal) x0 x1 x2 x3 x4 x5 x6 x7 (ix2 b e) = Cert.Attn.contexts x0 x1 x2 x3 x4 x5 x6 x7 b e := by
  rw [val_main_v29_apply, val_main_cst_2_apply, Ideal.ofBits_def, Ideal.ofBits_zero_f32, zero_add]
  unfold Cert.Attn.contexts Cert.Attn.context
  exact Finset.sum_congr rfl fun k _ => by
    rw [idx29, val_main_v28_apply, val_main_v27_apply, idx27, weights_ix, Ideal.mulf_def]

/-- The reference's first result, the context vectors, is the specification's. -/
theorem contexts_eq (i : S64x2048.Idx) :
    val_main_v29 (F := Ideal) x0 x1 x2 x3 x4 x5 x6 x7 i = Cert.Attn.contexts x0 x1 x2 x3 x4 x5 x6 x7 (i 0) (i 1) := by
  have hi : i = ix2 (i 0) (i 1) := eq_ix2 i
  rw [congrArg (val_main_v29 (F := Ideal) x0 x1 x2 x3 x4 x5 x6 x7) hi]
  exact contexts_ix x0 x1 x2 x3 x4 x5 x6 x7 (i 0) (i 1)

end Cert.ReferenceIdeal.RefValue

end
-- ==== Proof.Results.lean ====
/-
  The arrays the idealized kernel program ends with, as functions of its argument arrays: the two arrays the region
  writes (`[64, 1, 2048]` context vectors and `[64, 1, 1024]` attention weights, one block per batch) and the two results
  the host operations after the region make of them (the context vectors with the unit axis dropped, `[64, 2048]`, and
  the weights with the last two axes exchanged, `[64, 1024, 1]`).
-/
import proofs.«115363_j63144609185923_2_alg».proof.Defs
import proofs.«115363_j63144609185923_2_alg».proof.Proof.Gen.KernelIdeal.Frame
import proofs.«115363_j63144609185923_2_alg».proof.Proof.Spec

noncomputable section

open Idealize.ShloMosaic Idealize.ShloMosaic.TcCoe Idealize.SL.Sem

namespace Cert.KernelIdeal.Results

open Cert.KernelIdeal Cert.KernelIdeal.Gen Cert.Attn

variable (m : (ℓ : Loc nD τ sig) → Buf (Elt Ideal) ℓ)

/-- The attention weights of the argument arrays on device `c`, `[64, 1024]`. -/
abbrev W (c : Dev nD) : Fin 64 → Fin 1024 → EReal := weights (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The context vectors of the argument arrays on device `c`, `[64, 2048]`. -/
abbrev C (c : Dev nD) : Fin 64 → Fin 2048 → EReal := contexts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- What the region leaves in its first output array. -/
def regionCtx (c : Dev nD) : S64x1x2048.Idx → Elt Ideal .f32 :=
  fun i => C m c ⟨(i 0).val, (i 0).isLt⟩ ⟨(i 2).val, (i 2).isLt⟩

/-- What the region leaves in its second output array. -/
def regionW (c : Dev nD) : S64x1x1024.Idx → Elt Ideal .f32 :=
  fun i => W m c ⟨(i 0).val, (i 0).isLt⟩ ⟨(i 2).val, (i 2).isLt⟩

/-- The program's first result. -/
def resCtx (c : Dev nD) : S64x2048.Idx → Elt Ideal .f32 :=
  fun i => C m c ⟨(i 0).val, (i 0).isLt⟩ ⟨(i 1).val, (i 1).isLt⟩

/-- The program's second result. -/
def resW (c : Dev nD) : S64x1024x1.Idx → Elt Ideal .f32 :=
  fun i => W m c ⟨(i 0).val, (i 0).isLt⟩ ⟨(i 1).val, (i 1).isLt⟩

end Cert.KernelIdeal.Results

end
-- ==== Proof.LibKeepdims.lean ====
/-
  Column ("keepdims") forms read at an index, over any extents: a vector of length `a` viewed as an `[a, 1]` column, a
  column broadcast along the rows of an `[a, b]` array, and, over the extended reals, the sum of an `[a, b]` array
  along its rows (one value per row) and the sum of an `[a, 1]` column along its one column (one value).
-/
import Idealize.ShloMosaic.Lib.Pipeline.Value
import Idealize.ShloMosaic.Lib.ValueIdx
import Idealize.ShloMosaic.PureOps.Ideal.Laws

noncomputable section

namespace Cert.Keepdims

open Idealize.ShloMosaic Idealize.ShloMosaic.ValueIdx

variable {α : Type}

/-- A length-`a` vector viewed as an `[a, 1]` column reads, at `(r, 0)`, the vector at `r`: the two row-major positions
    agree. -/
theorem shapeCast_a_a1_apply {a : ℕ} (x : (⟨1, ![a]⟩ : Shape).Idx → α)
    (h : (⟨1, ![a]⟩ : Shape).ShapeCasts ⟨2, ![a, 1]⟩) (r : Fin a) (q : Fin 1) :
    shapeCast ⟨2, ![a, 1]⟩ x h (ix2 r q) = x (ix1 r) := by
  refine shapeCast_apply x h (ix2 r q) (ix1 r) ?_
  rw [Shape.rowMajor_val_one, Shape.rowMajor_val_two]
  show r.val = r.val * 1 + q.val
  have := q.isLt
  omega

/-- An `[a, 1]` column broadcast to `[a, b]` reads, at `(r, c)`, the column at row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the extended reals the sum of an `[a, b]` array along axis 1 is, at row `r`, the sum of that row's `b` entries. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ v 0x00000000#32 h hφ hacc (ix1 r) = ∑ k : Fin b, v (ix2 r k) := by
  refine (Ideal.reduceAdd_single h v (ix1 r)).trans ?_
  refine Finset.sum_congr rfl fun k _ => congrArg v ?_
  funext c
  apply Fin.ext
  match c with
  | ⟨0, _⟩ => rfl
  | ⟨1, _⟩ => rfl

/-- Over the extended reals the sum of an `[a, 1]` column along axis 0 is the sum of its `a` entries. -/
theorem colSum_apply {a : ℕ} (w : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (q : Fin 1) :
    multiReduction .add [0] ⟨1, ![1]⟩ w 0x00000000#32 h hφ hacc (ix1 q) = ∑ r : Fin a, w (ix2 r q) := by
  refine (Ideal.reduceAdd_single h w (ix1 q)).trans ?_
  refine Finset.sum_congr rfl fun k _ => congrArg w ?_
  funext c
  apply Fin.ext
  match c with
  | ⟨0, _⟩ => rfl
  | ⟨1, _⟩ => rfl

end Cert.Keepdims

end
-- ==== Proof.Payloads.lean ====
/-
  The kernel body's arithmetic read at an index, over the extended reals.

  Each lemma takes the vectors the body works on as variables and says what one entry of a payload is:
  a 256-row chunk's scores `∑ a, tanh ((∑ e, x e · W1 e a) + b1 a + ph a) · v a`; the softmax of the 1024 scores
  (shifted by `bv`, by their maximum, exponentiated, divided by the sum); and the context accumulated over the four
  chunks from zero. A matrix product into the zero accumulator is the plain sum of products over the contracted axis;
  a change of float format is the identity.
-/
import proofs.«115363_j63144609185923_2_alg».proof.Defs
import proofs.«115363_j63144609185923_2_alg».proof.Proof.Gen.KernelIdeal.Skeleton
import proofs.«115363_j63144609185923_2_alg».proof.Proof.Spec
import proofs.«115363_j63144609185923_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payload

open Cert.KernelIdeal Cert.KernelIdeal.Gen

/-! ## A plain matrix product into the zero accumulator -/

/-- For dimension numbers that contract the left operand's columns with the right operand's rows (the four coordinate
    facts), the product into the zero accumulator is, at `(p, c)`, `∑ k, lhs (p, k) · rhs (k, c)`. -/
theorem matmul2_zero_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (lhs : FVec Ideal ⟨2, ![M, K]⟩ φ₁) (rhs : FVec Ideal ⟨2, ![K, N]⟩ φ₂) (p : Fin M) (c : Fin N) :
    FloatOps.matmul D none lhs rhs (constant ⟨2, ![M, N]⟩ .f32 0x00000000#32) (ix2 p c)
      = ∑ k : Fin K, lhs (ix2 p k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

/-- Features (256 rows) times `W1`. -/
theorem mm_feat_W1 (lhs : FVec Ideal S256x2048 .bf16) (rhs : FVec Ideal S2048x512 .bf16) (p : Fin 256) (c : Fin 512) :
    FloatOps.matmul dot_S256x2048_S2048x512_S256x512_1_0_0_1_n_n none lhs rhs (constant S256x512 .f32 0x00000000#32) (ix2 p c)
      = ∑ k : Fin 2048, lhs (ix2 p k) * rhs (ix2 k c) :=
  matmul2_zero_apply dot_S256x2048_S2048x512_S256x512_1_0_0_1_n_n rfl rfl
    (fun i q => by
      unfold DotDims.lhsIdx
      rw [dif_neg (show ¬(0 : Fin S256x2048.rank) ∈ dot_S256x2048_S2048x512_S256x512_1_0_0_1_n_n.lhsBatch by decide), dif_pos (show (0 : Fin S256x2048.rank) ∈ dot_S256x2048_S2048x512_S256x512_1_0_0_1_n_n.lhsNonContracting by decide)]
      rfl)
    (fun i q => dot_S256x2048_S2048x512_S256x512_1_0_0_1_n_n.lhsIdx_val_of_single rfl i q)
    (fun i q => dot_S256x2048_S2048x512_S256x512_1_0_0_1_n_n.rhsIdx_val_of_single rfl i q)
    (fun i q => by
      unfold DotDims.rhsIdx
      rw [dif_neg (show ¬(1 : Fin S2048x512.rank) ∈ dot_S256x2048_S2048x512_S256x512_1_0_0_1_n_n.rhsBatch by decide), dif_pos (show (1 : Fin S2048x512.rank) ∈ dot_S256x2048_S2048x512_S256x512_1_0_0_1_n_n.rhsNonContracting by decide)]
      rfl)
    lhs rhs p c

/-- Hidden activations (256 rows) times the score vector `V`. -/
theorem mm_act_V (lhs : FVec Ideal S256x512 .bf16) (rhs : FVec Ideal S512x1 .bf16) (p : Fin 256) (c : Fin 1) :
    FloatOps.matmul dot_S256x512_S512x1_S256x1_1_0_0_1_n_n none lhs rhs (constant S256x1 .f32 0x00000000#32) (ix2 p c)
      = ∑ k : Fin 512, lhs (ix2 p k) * rhs (ix2 k c) :=
  matmul2_zero_apply dot_S256x512_S512x1_S256x1_1_0_0_1_n_n rfl rfl
    (fun i q => by
      unfold DotDims.lhsIdx
      rw [dif_neg (show ¬(0 : Fin S256x512.rank) ∈ dot_S256x512_S512x1_S256x1_1_0_0_1_n_n.lhsBatch by decide), dif_pos (show (0 : Fin S256x512.rank) ∈ dot_S256x512_S512x1_S256x1_1_0_0_1_n_n.lhsNonContracting by decide)]
      rfl)
    (fun i q => dot_S256x512_S512x1_S256x1_1_0_0_1_n_n.lhsIdx_val_of_single rfl i q)
    (fun i q => dot_S256x512_S512x1_S256x1_1_0_0_1_n_n.rhsIdx_val_of_single rfl i q)
    (fun i q => by
      unfold DotDims.rhsIdx
      rw [dif_neg (show ¬(1 : Fin S512x1.rank) ∈ dot_S256x512_S512x1_S256x1_1_0_0_1_n_n.rhsBatch by decide), dif_pos (show (1 : Fin S512x1.rank) ∈ dot_S256x512_S512x1_S256x1_1_0_0_1_n_n.rhsNonContracting by decide)]
      rfl)
    lhs rhs p c

/-- A chunk's 256 weights (one row) times its 256 feature rows. -/
theorem mm_w_feat (lhs : FVec Ideal S1x256 .bf16) (rhs : FVec Ideal S256x2048 .bf16) (p : Fin 1) (c : Fin 2048) :
    FloatOps.matmul dot_S1x256_S256x2048_S1x2048_1_0_0_1_n_n none lhs rhs (constant S1x2048 .f32 0x00000000#32) (ix2 p c)
      = ∑ k : Fin 256, lhs (ix2 p k) * rhs (ix2 k c) :=
  matmul2_zero_apply dot_S1x256_S256x2048_S1x2048_1_0_0_1_n_n rfl rfl
    (fun i q => by
      unfold DotDims.lhsIdx
      rw [dif_neg (show ¬(0 : Fin S1x256.rank) ∈ dot_S1x256_S256x2048_S1x2048_1_0_0_1_n_n.lhsBatch by decide), dif_pos (show (0 : Fin S1x256.rank) ∈ dot_S1x256_S256x2048_S1x2048_1_0_0_1_n_n.lhsNonContracting by decide)]
      rfl)
    (fun i q => dot_S1x256_S256x2048_S1x2048_1_0_0_1_n_n.lhsIdx_val_of_single rfl i q)
    (fun i q => dot_S1x256_S256x2048_S1x2048_1_0_0_1_n_n.rhsIdx_val_of_single rfl i q)
    (fun i q => by
      unfold DotDims.rhsIdx
      rw [dif_neg (show ¬(1 : Fin S256x2048.rank) ∈ dot_S1x256_S256x2048_S1x2048_1_0_0_1_n_n.rhsBatch by decide), dif_pos (show (1 : Fin S256x2048.rank) ∈ dot_S1x256_S256x2048_S1x2048_1_0_0_1_n_n.rhsNonContracting by decide)]
      rfl)
    lhs rhs p c

/-! ## The scores of one chunk -/

/-- Row `j` of a chunk: the feature row times `W1`, plus `b1`, plus the projected decoder state, through `tanh`, times
    the score vector. -/
theorem scoreChunk_apply (v1 : FVec Ideal S2048x512 .bf16) (v2 : Vec Ideal S512 .f32) (v4 : FVec Ideal S512x1 .bf16)
    (v7 : FVec Ideal S1x512 .f32) (v35 : Vec Ideal S1x256x2048 .f32) (j : Fin 256) :
    k0_pay10 v1 v2 v4 v7 v35 (ix2 (0 : Fin 1) j)
      = ∑ a : Fin 512, Ideal.tanh (((∑ e : Fin 2048, v35 (ix3 (0 : Fin 1) j e) * v1 (ix2 e a)) + v2 (ix1 a)) + v7 (ix2 (0 : Fin 1) a))
          * v4 (ix2 a (0 : Fin 1)) := by
  unfold k0_pay10 k0_pay8
  dsimp only
  refine (congrFun (shapeCast_self _ _) _).trans ?_
  refine (transpose_ix2_apply _ _ (0 : Fin 1) j).trans ?_
  refine (mm_act_V _ _ j (0 : Fin 1)).trans ?_
  refine Finset.sum_congr rfl fun a _ => ?_
  refine congrArg (· * v4 (ix2 a (0 : Fin 1))) ?_
  show Ideal.tanh ((FloatOps.matmul dot_S256x2048_S2048x512_S256x512_1_0_0_1_n_n none _ v1 (constant S256x512 .f32 0x00000000#32) (ix2 j a)
      + broadcastTo S256x512 (shapeCast S1x512 v2 shapeCasts_S512_S1x512) broadcasts_S1x512_S256x512 (ix2 j a))
      + broadcastTo S256x512 v7 broadcasts_S1x512_S256x512 (ix2 j a)) = _
  rw [mm_feat_W1, broadcastTo_1b_ab_apply, broadcastTo_1b_ab_apply, shapeCast_a_1a_apply]
  refine congrArg (fun s => Ideal.tanh ((s + v2 (ix1 a)) + v7 (ix2 (0 : Fin 1) a))) ?_
  refine Finset.sum_congr rfl fun e _ => ?_
  refine congrArg (· * v1 (ix2 e a)) ?_
  exact shapeCast_1ab_ab_apply v35 _ j e

/-! ## The softmax over the 1024 scores -/

/-- A one-entry vector spread along a row of 1024 lanes. -/
abbrev row (u : FVec Ideal S1 .f32) : FVec Ideal S1x1024 .f32 :=
  broadcastTo S1x1024 (shapeCast S1x1 u shapeCasts_S1_S1x1) broadcasts_S1x1_S1x1024

theorem row_apply (u : FVec Ideal S1 .f32) (k : Fin 1024) : row u (ix2 (0 : Fin 1) k) = u (ix1 (0 : Fin 1)) :=
  (Cert.Keepdims.broadcastTo_a1_ab_apply _ _ (0 : Fin 1) k).trans
    (Cert.Keepdims.shapeCast_a_a1_apply u _ (0 : Fin 1) (0 : Fin 1))

/-- The reduced index with lane `k` put back is `(0, k)`. -/
theorem lift_row (h : S1x1024.Reduces [1] S1) (k : Fin (S1x1024.size 1)) :
    h.lift (ix1 (0 : Fin 1)) k = ix2 (0 : Fin 1) (⟨k.val, k.isLt⟩ : Fin 1024) := by
  funext c
  apply Fin.ext
  match c with
  | ⟨0, _⟩ => rfl
  | ⟨1, _⟩ => rfl

/-- The lane maximum of a row of 1024 scores, started from the value of the pattern of −∞. -/
theorem rowMax_apply (v : FVec Ideal S1x1024 .f32) :
    multiReduction .maximumf [1] S1 v 0xFF800000#32 reduces_S1x1024_S1 (.inl rfl) rfl (ix1 (0 : Fin 1))
      = Cert.Attn.top (fun k => v (ix2 (0 : Fin 1) k)) := by
  refine (Ideal.multiReduction_maximumf_single v _ reduces_S1x1024_S1 (.inl rfl) rfl (ix1 (0 : Fin 1))).trans ?_
  have e : (v ∘ reduces_S1x1024_S1.lift (ix1 (0 : Fin 1))) = fun k : Fin 1024 => v (ix2 (0 : Fin 1) k) :=
    funext fun k => congrArg v (lift_row _ k)
  rw [e]
  rfl

/-- The lane sum of a row of 1024 entries. -/
theorem rowSum_apply (v : FVec Ideal S1x1024 .f32) :
    multiReduction .add [1] S1 v 0x00000000#32 reduces_S1x1024_S1 (.inl rfl) rfl (ix1 (0 : Fin 1))
      = ∑ k : Fin 1024, v (ix2 (0 : Fin 1) k) :=
  Cert.Keepdims.rowSum_apply v reduces_S1x1024_S1 (.inl rfl) rfl (0 : Fin 1)

/-- The softmax payload at lane `l`: with `s k` the stored score plus `bv`, it is `exp (s l − max s) / ∑ k, exp (s k − max s)`. -/
theorem softmax_apply (v5 : Vec Ideal S1 .f32) (v104 : Vec Ideal S1x1024 .f32) (l : Fin 1024) :
    k0_pay17 v5 v104 (ix2 (0 : Fin 1) l)
      = Cert.Attn.weight (fun k => v104 (ix2 (0 : Fin 1) k) + v5 (ix1 (0 : Fin 1))) l := by
  unfold k0_pay17
  dsimp only
  have hs : ∀ k : Fin 1024, addf v104 (row v5) (ix2 (0 : Fin 1) k) = v104 (ix2 (0 : Fin 1) k) + v5 (ix1 (0 : Fin 1)) :=
    fun k => congrArg (v104 (ix2 (0 : Fin 1) k) + ·) (row_apply v5 k)
  have hs' : (fun k : Fin 1024 => addf v104 (row v5) (ix2 (0 : Fin 1) k)) = fun k => v104 (ix2 (0 : Fin 1) k) + v5 (ix1 (0 : Fin 1)) :=
    funext hs
  generalize addf v104 (row v5) = v107 at hs' ⊢
  rw [← hs']
  unfold Cert.Attn.weight
  show Ideal.div (Ideal.exp (v107 (ix2 (0 : Fin 1) l) - row (multiReduction .maximumf [1] S1 v107 0xFF800000#32 reduces_S1x1024_S1 (.inl rfl) rfl) (ix2 (0 : Fin 1) l)))
      (row (multiReduction .add [1] S1 (exp (subf v107 (row (multiReduction .maximumf [1] S1 v107 0xFF800000#32 reduces_S1x1024_S1 (.inl rfl) rfl)))) 0x00000000#32 reduces_S1x1024_S1 (.inl rfl) rfl) (ix2 (0 : Fin 1) l)) = _
  rw [row_apply, row_apply, rowMax_apply, rowSum_apply]
  refine congrArg (Ideal.div _) (Finset.sum_congr rfl fun k _ => ?_)
  show Ideal.exp (v107 (ix2 (0 : Fin 1) k) - row (multiReduction .maximumf [1] S1 v107 0xFF800000#32 reduces_S1x1024_S1 (.inl rfl) rfl) (ix2 (0 : Fin 1) k)) = _
  rw [row_apply, rowMax_apply]

/-! ## The feature chunks kept for the second pass, and the context accumulated over the four chunks -/

/-- A chunk's 256 feature rows as kept in scratch (a change of float format is the identity): entry `(r, e)` is the
    loaded block's `(0, r, e)`. -/
theorem featChunk_apply (v35 : Vec Ideal S1x256x2048 .f32) (r : Fin 256) (e : Fin 2048) :
    k0_pay9 v35 (ix2 r e) = v35 (ix3 (0 : Fin 1) r e) := by
  unfold k0_pay9 k0_pay8
  dsimp only
  refine (congrFun (shapeCast_self _ _) _).trans ?_
  exact shapeCast_1ab_ab_apply v35 _ r e

/-- The context payload at feature `e`: the four chunks' weighted sums of feature rows, added one after the other to zero. -/
theorem context_apply (w0 : Vec Ideal S1x256 .f32) (f0 : Vec Ideal S256x2048 .bf16) (w1 : Vec Ideal S1x256 .f32)
    (f1 : Vec Ideal S256x2048 .bf16) (w2 : Vec Ideal S1x256 .f32) (f2 : Vec Ideal S256x2048 .bf16)
    (w3 : Vec Ideal S1x256 .f32) (f3 : Vec Ideal S256x2048 .bf16) (e : Fin 2048) :
    k0_pay1 (k0_pay20 w0 f0 w1 f1 w2 f2) (k0_pay21 w3) f3 (ix3 (0 : Fin 1) (0 : Fin 1) e)
      = ((((0 : EReal) + ∑ j : Fin 256, w0 (ix2 (0 : Fin 1) j) * f0 (ix2 j e))
          + ∑ j : Fin 256, w1 (ix2 (0 : Fin 1) j) * f1 (ix2 j e))
          + ∑ j : Fin 256, w2 (ix2 (0 : Fin 1) j) * f2 (ix2 j e))
          + ∑ j : Fin 256, w3 (ix2 (0 : Fin 1) j) * f3 (ix2 j e) := by
  unfold k0_pay1 k0_pay20 k0_pay21
  dsimp only
  refine (shapeCast_ab_1ab_apply _ _ (0 : Fin 1) (0 : Fin 1) e).trans ?_
  have z : (Scalar.ofBits .f32 0x00000000#32 : Ideal .f32) = (0 : EReal) := Ideal.ofBits_zero_f32
  simp only [addf_apply, matmul, mm_w_feat, truncf_apply, broadcast_apply, z]

end Cert.KernelIdeal.Payload

end
-- ==== Proof.Pieces.lean ====
/-
  What the kernel body leaves in its two output blocks at one grid point (one batch), read at an index.

  The body makes two passes over the batch's 1024 positions in four chunks of 256. The first pass stores each chunk's
  scores in a row of scratch and keeps the chunk's feature rows; the row read back is the 1024 scores
  (a store of 256 lanes at offset 256·k holds positions 256·k … 256·k + 255). The softmax of that row is the second
  output block, and is stored over the scratch row; the second pass reads it back in chunks and accumulates
  `∑ weight · feature row` into the first output block.
-/
import proofs.«115363_j63144609185923_2_alg».proof.Defs
import proofs.«115363_j63144609185923_2_alg».proof.Proof.Gen.KernelIdeal.Frame
import proofs.«115363_j63144609185923_2_alg».proof.Proof.Spec
import proofs.«115363_j63144609185923_2_alg».proof.Proof.Payloads
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx

namespace Cert.KernelIdeal.Block

open Cert.KernelIdeal Cert.KernelIdeal.Gen Cert.KernelIdeal.Payload Cert.Attn

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The batch's blocks as plain functions -/

section Vocabulary

variable (x0 : Vec Ideal S1x1024x2048 .f32) (x1 : Vec Ideal S1x1x512 .f32) (x2 : Vec Ideal S2048x512 .bf16)
  (x3 : Vec Ideal S512 .f32) (x4 : Vec Ideal S512x1 .bf16) (x5 : Vec Ideal S1 .f32)

/-- The batch's feature rows. -/
abbrev featB : Fin 1024 → Fin 2048 → EReal := fun l e => x0 (ix3 (0 : Fin 1) l e)

/-- The batch's scores before the output bias. -/
abbrev preScoreB : Fin 1024 → EReal :=
  preScore (featB x0) (fun a => x1 (ix3 (0 : Fin 1) (0 : Fin 1) a)) (fun e a => x2 (ix2 e a)) (fun a => x3 (ix1 a))
    (fun a => x4 (ix2 a (0 : Fin 1)))

/-- The batch's scores. -/
abbrev scoreB : Fin 1024 → EReal := fun l => preScoreB x0 x1 x2 x3 x4 l + x5 (ix1 (0 : Fin 1))

/-- The batch's attention weights. -/
abbrev weightB : Fin 1024 → EReal := weight (scoreB x0 x1 x2 x3 x4 x5)

end Vocabulary

/-! ## One chunk -/

/-- Row `j` of chunk `k`, loaded through the chunk's rectangle of the feature block, is position `256 k + j`. -/
theorem ld_chunk (x0 : Vec Ideal S1x1024x2048 .f32) (k : Fin 4) (off : Fin 3 → ℕ) (hoff : off = ![0, 256 * k.val, 0])
    (g : ∀ a, off a + (![1, 256, 2048] : Fin 3 → ℕ) a ≤ S1x1024x2048.size a) (j : Fin 256) (e : Fin 2048) :
    View.ld x0 (Rect.unit off ![1, 256, 2048] g) (ix3 (0 : Fin 1) j e) = x0 (ix3 (0 : Fin 1) (chunkIx k j) e) := by
  subst hoff
  show x0 ((Rect.unit (s := S1x1024x2048) ![0, 256 * k.val, 0] ![1, 256, 2048] g).emb (ix3 (0 : Fin 1) j e)) = _
  refine congrArg x0 ?_
  funext a
  apply Fin.ext
  match a with
  | ⟨0, _⟩ => show 0 + 1 * 0 = 0; rfl
  | ⟨1, _⟩ => show 256 * k.val + 1 * j.val = j.val + 256 * k.val; omega
  | ⟨2, _⟩ => show 0 + 1 * e.val = e.val; omega

/-- A chunk's score payload at row `j` is the batch's score (before the bias) at position `256 k + j`. -/
theorem scorePiece (x0 : Vec Ideal S1x1024x2048 .f32) (x1 : Vec Ideal S1x1x512 .f32) (x2 : Vec Ideal S2048x512 .bf16)
    (x3 : Vec Ideal S512 .f32) (x4 : Vec Ideal S512x1 .bf16) (k : Fin 4) (off : Fin 3 → ℕ)
    (hoff : off = ![0, 256 * k.val, 0]) (g : ∀ a, off a + (![1, 256, 2048] : Fin 3 → ℕ) a ≤ S1x1024x2048.size a) (j : Fin 256) :
    k0_pay10 (k0_pay2 x2) x3 (k0_pay3 x4) (k0_pay4 x1) (View.ld x0 (Rect.unit off ![1, 256, 2048] g)) (ix2 (0 : Fin 1) j)
      = preScoreB x0 x1 x2 x3 x4 (chunkIx k j) := by
  have e2 : k0_pay2 x2 = x2 := shapeCast_self _ _
  have e3 : k0_pay3 x4 = x4 := shapeCast_self _ _
  have e4 : ∀ a : Fin 512, k0_pay4 x1 (ix2 (0 : Fin 1) a) = x1 (ix3 (0 : Fin 1) (0 : Fin 1) a) :=
    fun a => shapeCast_1ab_ab_apply x1 _ (0 : Fin 1) a
  rw [scoreChunk_apply, e2, e3]
  unfold preScoreB preScore featB
  refine Finset.sum_congr rfl fun a _ => ?_
  rw [e4]
  refine congrArg (fun s => Ideal.tanh ((s + x3 (ix1 a)) + x1 (ix3 (0 : Fin 1) (0 : Fin 1) a)) * x4 (ix2 a (0 : Fin 1))) ?_
  refine Finset.sum_congr rfl fun e _ => ?_
  rw [ld_chunk x0 k off hoff g j e]

/-! ## The score row read back from scratch -/

/-- The 1024 scores (before the bias) as a row. -/
abbrev scoreRow (x0 : Vec Ideal S1x1024x2048 .f32) (x1 : Vec Ideal S1x1x512 .f32) (x2 : Vec Ideal S2048x512 .bf16)
    (x3 : Vec Ideal S512 .f32) (x4 : Vec Ideal S512x1 .bf16) : S1x1024.Idx → Elt Ideal .f32 :=
  fun y => preScoreB x0 x1 x2 x3 x4 ⟨(y 1).val, idx2_lt1 y⟩

/-- A chunk's stored scores agree with the row on the lanes the store covers. -/
theorem pieceAt (x0 : Vec Ideal S1x1024x2048 .f32) (x1 : Vec Ideal S1x1x512 .f32) (x2 : Vec Ideal S2048x512 .bf16)
    (x3 : Vec Ideal S512 .f32) (x4 : Vec Ideal S512x1 .bf16) (k : Fin 4)
    (off2 : Fin 2 → ℕ) (hoff2 : off2 = ![0, 256 * k.val]) (h : ∀ a, off2 a + (![1, 256] : Fin 2 → ℕ) a ≤ S1x1024.size a)
    (off3 : Fin 3 → ℕ) (hoff3 : off3 = ![0, 256 * k.val, 0]) (g : ∀ a, off3 a + (![1, 256, 2048] : Fin 3 → ℕ) a ≤ S1x1024x2048.size a)
    (x : (Rect.unit (s := S1x1024) off2 ![1, 256] h).shape.Idx) :
    k0_pay10 (k0_pay2 x2) x3 (k0_pay3 x4) (k0_pay4 x1) (View.ld x0 (Rect.unit off3 ![1, 256, 2048] g)) x
      = scoreRow x0 x1 x2 x3 x4 ((Rect.unit (s := S1x1024) off2 ![1, 256] h).emb x) := by
  obtain ⟨u, j, rfl⟩ : ∃ (u : Fin 1) (j : Fin 256), x = ix2 u j := ⟨x 0, x 1, eq_ix2 x⟩
  obtain rfl : u = 0 := Subsingleton.elim _ _
  rw [scorePiece x0 x1 x2 x3 x4 k off3 hoff3 g j]
  refine congrArg (preScoreB x0 x1 x2 x3 x4) (Fin.ext ?_)
  subst hoff2
  show j.val + 256 * k.val = 256 * k.val + 1 * j.val
  omega

/-- The four chunk stores, read back, are the score row. -/
theorem scoreScratch_apply (x0 : Vec Ideal S1x1024x2048 .f32) (x1 : Vec Ideal S1x1x512 .f32) (x2 : Vec Ideal S2048x512 .bf16)
    (x3 : Vec Ideal S512 .f32) (x4 : Vec Ideal S512x1 .bf16)
    (h0 : ∀ a, (![0, 0] : Fin 2 → ℕ) a + (![1, 256] : Fin 2 → ℕ) a ≤ S1x1024.size a)
    (h1 : ∀ a, (![0, 256] : Fin 2 → ℕ) a + (![1, 256] : Fin 2 → ℕ) a ≤ S1x1024.size a)
    (h2 : ∀ a, (![0, 512] : Fin 2 → ℕ) a + (![1, 256] : Fin 2 → ℕ) a ≤ S1x1024.size a)
    (h3 : ∀ a, (![0, 768] : Fin 2 → ℕ) a + (![1, 256] : Fin 2 → ℕ) a ≤ S1x1024.size a)
    (g0 : ∀ a, (![0, 0, 0] : Fin 3 → ℕ) a + (![1, 256, 2048] : Fin 3 → ℕ) a ≤ S1x1024x2048.size a)
    (g1 : ∀ a, (![0, 256, 0] : Fin 3 → ℕ) a + (![1, 256, 2048] : Fin 3 → ℕ) a ≤ S1x1024x2048.size a)
    (g2 : ∀ a, (![0, 512, 0] : Fin 3 → ℕ) a + (![1, 256, 2048] : Fin 3 → ℕ) a ≤ S1x1024x2048.size a)
    (g3 : ∀ a, (![0, 768, 0] : Fin 3 → ℕ) a + (![1, 256, 2048] : Fin 3 → ℕ) a ≤ S1x1024x2048.size a)
    (y : S1x1024.Idx) :
    View.canon (Val := Elt Ideal)
      [(⟨Rect.unit ![0, 768] ![1, 256] h3, k0_pay16 (k0_pay2 x2) x3 (k0_pay3 x4) (k0_pay4 x1) (View.ld x0 (Rect.unit ![0, 768, 0] ![1, 256, 2048] g3))⟩ : View.Piece (Elt Ideal) S1x1024 .f32),
       ⟨Rect.unit ![0, 512] ![1, 256] h2, k0_pay13 (k0_pay2 x2) x3 (k0_pay3 x4) (k0_pay4 x1) (View.ld x0 (Rect.unit ![0, 512, 0] ![1, 256, 2048] g2))⟩,
       ⟨Rect.unit ![0, 256] ![1, 256] h1, k0_pay10 (k0_pay2 x2) x3 (k0_pay3 x4) (k0_pay4 x1) (View.ld x0 (Rect.unit ![0, 256, 0] ![1, 256, 2048] g1))⟩,
       ⟨Rect.unit ![0, 0] ![1, 256] h0, k0_pay7 x2 x3 x4 x1 (View.ld x0 (Rect.unit ![0, 0, 0] ![1, 256, 2048] g0))⟩] y
      = scoreRow x0 x1 x2 x3 x4 y := by
  refine View.canon_apply_of_pieces (scoreRow x0 x1 x2 x3 x4) _ (fun p hp x => ?_) y ?_
  · simp only [List.mem_cons, List.not_mem_nil, or_false] at hp
    rcases hp with rfl | rfl | rfl | rfl
    · exact pieceAt x0 x1 x2 x3 x4 3 _ rfl h3 _ rfl g3 x
    · exact pieceAt x0 x1 x2 x3 x4 2 _ rfl h2 _ rfl g2 x
    · exact pieceAt x0 x1 x2 x3 x4 1 _ rfl h1 _ rfl g1 x
    · exact pieceAt x0 x1 x2 x3 x4 0 _ rfl h0 _ rfl g0 x
  · have hy0 : (y 0).val < 1 := idx2_lt0 y
    have hy1 : (y 1).val < 1024 := idx2_lt1 y
    by_cases c3 : 768 ≤ (y 1).val
    · refine ⟨_, List.Mem.head _, (Rect.mem_set_unit (inb := h3)).mpr fun a => ?_⟩
      match a with
      | ⟨0, _⟩ => exact ⟨Nat.zero_le _, by show (y 0).val < 0 + 1; omega⟩
      | ⟨1, _⟩ => exact ⟨c3, by show (y 1).val < 768 + 256; omega⟩
    by_cases c2 : 512 ≤ (y 1).val
    · refine ⟨_, List.Mem.tail _ (List.Mem.head _), (Rect.mem_set_unit (inb := h2)).mpr fun a => ?_⟩
      match a with
      | ⟨0, _⟩ => exact ⟨Nat.zero_le _, by show (y 0).val < 0 + 1; omega⟩
      | ⟨1, _⟩ => exact ⟨c2, by show (y 1).val < 512 + 256; omega⟩
    by_cases c1 : 256 ≤ (y 1).val
    · refine ⟨_, List.Mem.tail _ (List.Mem.tail _ (List.Mem.head _)), (Rect.mem_set_unit (inb := h1)).mpr fun a => ?_⟩
      match a with
      | ⟨0, _⟩ => exact ⟨Nat.zero_le _, by show (y 0).val < 0 + 1; omega⟩
      | ⟨1, _⟩ => exact ⟨c1, by show (y 1).val < 256 + 256; omega⟩
    · refine ⟨_, List.Mem.tail _ (List.Mem.tail _ (List.Mem.tail _ (List.Mem.head _))), (Rect.mem_set_unit (inb := h0)).mpr fun a => ?_⟩
      match a with
      | ⟨0, _⟩ => exact ⟨Nat.zero_le _, by show (y 0).val < 0 + 1; omega⟩
      | ⟨1, _⟩ => exact ⟨Nat.zero_le _, by show (y 1).val < 0 + 256; omega⟩

/-! ## The second output block: the attention weights -/

/-- What the body leaves in the weights block, at lane `l`: the softmax weight of position `l`. -/
theorem out7_apply (c : Dev nD) (i : grid0.Coords) (arg1 : Memref sig .tc .vmem S1x1024x2048 .f32) (harg1 : arg1.IsWhole) (arg2 : Memref sig .tc .vmem S1x1x512 .f32) (harg2 : arg2.IsWhole) (arg3 : Memref sig .tc .vmem S2048x512 .bf16) (harg3 : arg3.IsWhole) (arg4 : Memref sig .tc .vmem S512 .f32) (harg4 : arg4.IsWhole) (arg5 : Memref sig .tc .vmem S512x1 .bf16) (harg5 : arg5.IsWhole) (arg6 : Memref sig .tc .vmem S1 .f32) (harg6 : arg6.IsWhole) (arg7 : Memref sig .tc .vmem S1x1x2048 .f32) (harg7 : arg7.IsWhole) (arg8 : Memref sig .tc .vmem S1x1x1024 .f32) (harg8 : arg8.IsWhole) (arg9 : Memref sig .tc .vmem S1024x2048 .bf16) (harg9 : arg9.IsWhole) (arg10 : Memref sig .tc .vmem S1x1024 .f32) (harg10 : arg10.IsWhole)
    (x0 : Vec Ideal S1x1024x2048 .f32) (x1 : Vec Ideal S1x1x512 .f32) (x2 : Vec Ideal S2048x512 .bf16) (x3 : Vec Ideal S512 .f32) (x4 : Vec Ideal S512x1 .bf16) (x5 : Vec Ideal S1 .f32) (l : Fin 1024) :
    out0_A_7 (F := Ideal) c i arg1 harg1 arg2 harg2 arg3 harg3 arg4 harg4 arg5 harg5 arg6 harg6 arg7 harg7 arg8 harg8 arg9 harg9 arg10 harg10 x0 x1 x2 x3 x4 x5 (ix3 (0 : Fin 1) (0 : Fin 1) l) = weightB x0 x1 x2 x3 x4 x5 l := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 x0 x1 x2 x3 x4 x5)]
  unfold kernelRun0_A
  dsimp only
  sl_unfold_words
  rw [View.canon_unit_zero hz3]
  simp only [View.readAt_eq_ld, harg1.read_unread, harg2.read_unread, harg3.read_unread, harg4.read_unread, harg5.read_unread, harg6.read_unread,
    View.ld_unit_zero (S := S1) hz1, View.ld_unit_zero (S := S2048x512) hz2, View.ld_unit_zero (S := S512) hz1, View.ld_unit_zero (S := S512x1) hz2, View.ld_unit_zero (S := S1x1x512) hz3]
  rw [View.readCov_eq_canon']
  unfold k0_pay18
  refine (shapeCast_ab_1ab_apply _ _ (0 : Fin 1) (0 : Fin 1) l).trans ?_
  rw [softmax_apply]
  unfold weightB scoreB
  refine congrArg (fun s => weight s l) (funext fun k => ?_)
  refine congrArg (· + x5 (ix1 (0 : Fin 1))) ?_
  refine (scoreScratch_apply x0 x1 x2 x3 x4 _ _ _ _ _ _ _ _ _).trans ?_
  refine congrArg (preScoreB x0 x1 x2 x3 x4) (Fin.ext ?_)
  show 0 + 1 * k.val = k.val
  omega

/-! ## The second pass -/

/-- The score row read back through the whole-row rectangle, at lane `k`. -/
theorem scoreReadBack (x0 : Vec Ideal S1x1024x2048 .f32) (x1 : Vec Ideal S1x1x512 .f32) (x2 : Vec Ideal S2048x512 .bf16)
    (x3 : Vec Ideal S512 .f32) (x4 : Vec Ideal S512x1 .bf16)
    (h0 : ∀ a, (![0, 0] : Fin 2 → ℕ) a + (![1, 256] : Fin 2 → ℕ) a ≤ S1x1024.size a)
    (h1 : ∀ a, (![0, 256] : Fin 2 → ℕ) a + (![1, 256] : Fin 2 → ℕ) a ≤ S1x1024.size a)
    (h2 : ∀ a, (![0, 512] : Fin 2 → ℕ) a + (![1, 256] : Fin 2 → ℕ) a ≤ S1x1024.size a)
    (h3 : ∀ a, (![0, 768] : Fin 2 → ℕ) a + (![1, 256] : Fin 2 → ℕ) a ≤ S1x1024.size a)
    (g0 : ∀ a, (![0, 0, 0] : Fin 3 → ℕ) a + (![1, 256, 2048] : Fin 3 → ℕ) a ≤ S1x1024x2048.size a)
    (g1 : ∀ a, (![0, 256, 0] : Fin 3 → ℕ) a + (![1, 256, 2048] : Fin 3 → ℕ) a ≤ S1x1024x2048.size a)
    (g2 : ∀ a, (![0, 512, 0] : Fin 3 → ℕ) a + (![1, 256, 2048] : Fin 3 → ℕ) a ≤ S1x1024x2048.size a)
    (g3 : ∀ a, (![0, 768, 0] : Fin 3 → ℕ) a + (![1, 256, 2048] : Fin 3 → ℕ) a ≤ S1x1024x2048.size a)
    (hw : ∀ a, (![0, 0] : Fin 2 → ℕ) a + (![1, 1024] : Fin 2 → ℕ) a ≤ S1x1024.size a) (k : Fin 1024) :
    View.canon (Val := Elt Ideal)
      [(⟨Rect.unit ![0, 768] ![1, 256] h3, k0_pay16 (k0_pay2 x2) x3 (k0_pay3 x4) (k0_pay4 x1) (View.ld x0 (Rect.unit ![0, 768, 0] ![1, 256, 2048] g3))⟩ : View.Piece (Elt Ideal) S1x1024 .f32),
       ⟨Rect.unit ![0, 512] ![1, 256] h2, k0_pay13 (k0_pay2 x2) x3 (k0_pay3 x4) (k0_pay4 x1) (View.ld x0 (Rect.unit ![0, 512, 0] ![1, 256, 2048] g2))⟩,
       ⟨Rect.unit ![0, 256] ![1, 256] h1, k0_pay10 (k0_pay2 x2) x3 (k0_pay3 x4) (k0_pay4 x1) (View.ld x0 (Rect.unit ![0, 256, 0] ![1, 256, 2048] g1))⟩,
       ⟨Rect.unit ![0, 0] ![1, 256] h0, k0_pay7 x2 x3 x4 x1 (View.ld x0 (Rect.unit ![0, 0, 0] ![1, 256, 2048] g0))⟩]
      ((Rect.unit (s := S1x1024) ![0, 0] ![1, 1024] hw).toLoadRect.idx (ix2 (0 : Fin 1) k))
      = preScoreB x0 x1 x2 x3 x4 k := by
  refine (scoreScratch_apply x0 x1 x2 x3 x4 h0 h1 h2 h3 g0 g1 g2 g3 _).trans ?_
  refine congrArg (preScoreB x0 x1 x2 x3 x4) (Fin.ext ?_)
  show 0 + 1 * k.val = k.val
  omega

/-- The softmax of a row holding the scores is the weights. -/
theorem weightsRow (x0 : Vec Ideal S1x1024x2048 .f32) (x1 : Vec Ideal S1x1x512 .f32) (x2 : Vec Ideal S2048x512 .bf16)
    (x3 : Vec Ideal S512 .f32) (x4 : Vec Ideal S512x1 .bf16) (x5 : Vec Ideal S1 .f32) (SC : Vec Ideal S1x1024 .f32)
    (hSC : ∀ k : Fin 1024, SC (ix2 (0 : Fin 1) k) = preScoreB x0 x1 x2 x3 x4 k) (l : Fin 1024) :
    k0_pay17 x5 SC (ix2 (0 : Fin 1) l) = weightB x0 x1 x2 x3 x4 x5 l := by
  rw [softmax_apply]
  unfold weightB scoreB
  exact congrArg (fun s => weight s l) (funext fun k => congrArg (· + x5 (ix1 (0 : Fin 1))) (hSC k))

/-- The weights stored over the scratch row and read back through chunk `k`'s 256 lanes: lane `j` is the weight of
    position `256 k + j`. -/
theorem weightChunk (x0 : Vec Ideal S1x1024x2048 .f32) (x1 : Vec Ideal S1x1x512 .f32) (x2 : Vec Ideal S2048x512 .bf16)
    (x3 : Vec Ideal S512 .f32) (x4 : Vec Ideal S512x1 .bf16) (x5 : Vec Ideal S1 .f32) (SC : Vec Ideal S1x1024 .f32)
    (hSC : ∀ k : Fin 1024, SC (ix2 (0 : Fin 1) k) = preScoreB x0 x1 x2 x3 x4 k) (k : Fin 4) (off : Fin 2 → ℕ)
    (hoff : off = ![0, 256 * k.val]) (h : ∀ a, off a + (![1, 256] : Fin 2 → ℕ) a ≤ S1x1024.size a) (j : Fin 256) :
    k0_pay19 (k0_pay17 x5 SC) ((Rect.unit (s := S1x1024) off ![1, 256] h).toLoadRect.idx (ix2 (0 : Fin 1) j))
      = weightB x0 x1 x2 x3 x4 x5 (chunkIx k j) := by
  have e : (Rect.unit (s := S1x1024) off ![1, 256] h).toLoadRect.idx (ix2 (0 : Fin 1) j) = ix2 (0 : Fin 1) (chunkIx k j) := by
    subst hoff
    funext a
    apply Fin.ext
    match a with
    | ⟨0, _⟩ => rfl
    | ⟨1, _⟩ => show 256 * k.val + 1 * j.val = j.val + 256 * k.val; omega
  rw [e]
  unfold k0_pay19
  refine (congrFun (shapeCast_self _ _) _).trans ?_
  exact weightsRow x0 x1 x2 x3 x4 x5 SC hSC (chunkIx k j)

/-- The kept feature rows as one `[1024, 2048]` array. -/
abbrev featRows (x0 : Vec Ideal S1x1024x2048 .f32) : S1024x2048.Idx → Elt Ideal .bf16 :=
  fun y => x0 (ix3 (0 : Fin 1) (⟨(y 0).val, idx2_lt0 y⟩ : Fin 1024) (⟨(y 1).val, idx2_lt1 y⟩ : Fin 2048))

/-- A chunk's kept rows agree with that array on the rows the store covers. -/
theorem pieceF (x0 : Vec Ideal S1x1024x2048 .f32) (k : Fin 4)
    (off2 : Fin 2 → ℕ) (hoff2 : off2 = ![256 * k.val, 0]) (h : ∀ a, off2 a + (![256, 2048] : Fin 2 → ℕ) a ≤ S1024x2048.size a)
    (off3 : Fin 3 → ℕ) (hoff3 : off3 = ![0, 256 * k.val, 0]) (g : ∀ a, off3 a + (![1, 256, 2048] : Fin 3 → ℕ) a ≤ S1x1024x2048.size a)
    (x : (Rect.unit (s := S1024x2048) off2 ![256, 2048] h).shape.Idx) :
    k0_pay9 (View.ld x0 (Rect.unit off3 ![1, 256, 2048] g)) x
      = featRows x0 ((Rect.unit (s := S1024x2048) off2 ![256, 2048] h).emb x) := by
  obtain ⟨r, e, rfl⟩ : ∃ (r : Fin 256) (e : Fin 2048), x = ix2 r e := ⟨x 0, x 1, eq_ix2 x⟩
  rw [featChunk_apply, ld_chunk x0 k off3 hoff3 g r e]
  refine congrArg x0 ?_
  subst hoff2
  funext a
  apply Fin.ext
  match a with
  | ⟨0, _⟩ => rfl
  | ⟨1, _⟩ => show r.val + 256 * k.val = 256 * k.val + 1 * r.val; omega
  | ⟨2, _⟩ => show e.val = 0 + 1 * e.val; omega

/-- The four chunk stores of kept rows, read back, are that array. -/
theorem featScratch_apply (x0 : Vec Ideal S1x1024x2048 .f32)
    (f0 : ∀ a, (![0, 0] : Fin 2 → ℕ) a + (![256, 2048] : Fin 2 → ℕ) a ≤ S1024x2048.size a)
    (f1 : ∀ a, (![256, 0] : Fin 2 → ℕ) a + (![256, 2048] : Fin 2 → ℕ) a ≤ S1024x2048.size a)
    (f2 : ∀ a, (![512, 0] : Fin 2 → ℕ) a + (![256, 2048] : Fin 2 → ℕ) a ≤ S1024x2048.size a)
    (f3 : ∀ a, (![768, 0] : Fin 2 → ℕ) a + (![256, 2048] : Fin 2 → ℕ) a ≤ S1024x2048.size a)
    (g0 : ∀ a, (![0, 0, 0] : Fin 3 → ℕ) a + (![1, 256, 2048] : Fin 3 → ℕ) a ≤ S1x1024x2048.size a)
    (g1 : ∀ a, (![0, 256, 0] : Fin 3 → ℕ) a + (![1, 256, 2048] : Fin 3 → ℕ) a ≤ S1x1024x2048.size a)
    (g2 : ∀ a, (![0, 512, 0] : Fin 3 → ℕ) a + (![1, 256, 2048] : Fin 3 → ℕ) a ≤ S1x1024x2048.size a)
    (g3 : ∀ a, (![0, 768, 0] : Fin 3 → ℕ) a + (![1, 256, 2048] : Fin 3 → ℕ) a ≤ S1x1024x2048.size a)
    (y : S1024x2048.Idx) :
    View.canon (Val := Elt Ideal)
      [(⟨Rect.unit ![768, 0] ![256, 2048] f3, k0_pay15 (View.ld x0 (Rect.unit ![0, 768, 0] ![1, 256, 2048] g3))⟩ : View.Piece (Elt Ideal) S1024x2048 .bf16),
       ⟨Rect.unit ![512, 0] ![256, 2048] f2, k0_pay12 (View.ld x0 (Rect.unit ![0, 512, 0] ![1, 256, 2048] g2))⟩,
       ⟨Rect.unit ![256, 0] ![256, 2048] f1, k0_pay9 (View.ld x0 (Rect.unit ![0, 256, 0] ![1, 256, 2048] g1))⟩,
       ⟨Rect.unit ![0, 0] ![256, 2048] f0, k0_pay6 (View.ld x0 (Rect.unit ![0, 0, 0] ![1, 256, 2048] g0))⟩] y
      = featRows x0 y := by
  refine View.canon_apply_of_pieces (featRows x0) _ (fun p hp x => ?_) y ?_
  · simp only [List.mem_cons, List.not_mem_nil, or_false] at hp
    rcases hp with rfl | rfl | rfl | rfl
    · exact pieceF x0 3 _ rfl f3 _ rfl g3 x
    · exact pieceF x0 2 _ rfl f2 _ rfl g2 x
    · exact pieceF x0 1 _ rfl f1 _ rfl g1 x
    · exact pieceF x0 0 _ rfl f0 _ rfl g0 x
  · have hy0 : (y 0).val < 1024 := idx2_lt0 y
    have hy1 : (y 1).val < 2048 := idx2_lt1 y
    by_cases c3 : 768 ≤ (y 0).val
    · refine ⟨_, List.Mem.head _, (Rect.mem_set_unit (inb := f3)).mpr fun a => ?_⟩
      match a with
      | ⟨0, _⟩ => exact ⟨c3, by show (y 0).val < 768 + 256; omega⟩
      | ⟨1, _⟩ => exact ⟨Nat.zero_le _, by show (y 1).val < 0 + 2048; omega⟩
    by_cases c2 : 512 ≤ (y 0).val
    · refine ⟨_, List.Mem.tail _ (List.Mem.head _), (Rect.mem_set_unit (inb := f2)).mpr fun a => ?_⟩
      match a with
      | ⟨0, _⟩ => exact ⟨c2, by show (y 0).val < 512 + 256; omega⟩
      | ⟨1, _⟩ => exact ⟨Nat.zero_le _, by show (y 1).val < 0 + 2048; omega⟩
    by_cases c1 : 256 ≤ (y 0).val
    · refine ⟨_, List.Mem.tail _ (List.Mem.tail _ (List.Mem.head _)), (Rect.mem_set_unit (inb := f1)).mpr fun a => ?_⟩
      match a with
      | ⟨0, _⟩ => exact ⟨c1, by show (y 0).val < 256 + 256; omega⟩
      | ⟨1, _⟩ => exact ⟨Nat.zero_le _, by show (y 1).val < 0 + 2048; omega⟩
    · refine ⟨_, List.Mem.tail _ (List.Mem.tail _ (List.Mem.tail _ (List.Mem.head _))), (Rect.mem_set_unit (inb := f0)).mpr fun a => ?_⟩
      match a with
      | ⟨0, _⟩ => exact ⟨Nat.zero_le _, by show (y 0).val < 0 + 256; omega⟩
      | ⟨1, _⟩ => exact ⟨Nat.zero_le _, by show (y 1).val < 0 + 2048; omega⟩

/-- The kept rows read back through chunk `k`'s 256 rows: row `j` is the feature row of position `256 k + j`. -/
theorem featReadBack (x0 : Vec Ideal S1x1024x2048 .f32)
    (f0 : ∀ a, (![0, 0] : Fin 2 → ℕ) a + (![256, 2048] : Fin 2 → ℕ) a ≤ S1024x2048.size a)
    (f1 : ∀ a, (![256, 0] : Fin 2 → ℕ) a + (![256, 2048] : Fin 2 → ℕ) a ≤ S1024x2048.size a)
    (f2 : ∀ a, (![512, 0] : Fin 2 → ℕ) a + (![256, 2048] : Fin 2 → ℕ) a ≤ S1024x2048.size a)
    (f3 : ∀ a, (![768, 0] : Fin 2 → ℕ) a + (![256, 2048] : Fin 2 → ℕ) a ≤ S1024x2048.size a)
    (g0 : ∀ a, (![0, 0, 0] : Fin 3 → ℕ) a + (![1, 256, 2048] : Fin 3 → ℕ) a ≤ S1x1024x2048.size a)
    (g1 : ∀ a, (![0, 256, 0] : Fin 3 → ℕ) a + (![1, 256, 2048] : Fin 3 → ℕ) a ≤ S1x1024x2048.size a)
    (g2 : ∀ a, (![0, 512, 0] : Fin 3 → ℕ) a + (![1, 256, 2048] : Fin 3 → ℕ) a ≤ S1x1024x2048.size a)
    (g3 : ∀ a, (![0, 768, 0] : Fin 3 → ℕ) a + (![1, 256, 2048] : Fin 3 → ℕ) a ≤ S1x1024x2048.size a)
    (k : Fin 4) (off : Fin 2 → ℕ) (hoff : off = ![256 * k.val, 0])
    (h : ∀ a, off a + (![256, 2048] : Fin 2 → ℕ) a ≤ S1024x2048.size a) (j : Fin 256) (e : Fin 2048) :
    View.canon (Val := Elt Ideal)
      [(⟨Rect.unit ![768, 0] ![256, 2048] f3, k0_pay15 (View.ld x0 (Rect.unit ![0, 768, 0] ![1, 256, 2048] g3))⟩ : View.Piece (Elt Ideal) S1024x2048 .bf16),
       ⟨Rect.unit ![512, 0] ![256, 2048] f2, k0_pay12 (View.ld x0 (Rect.unit ![0, 512, 0] ![1, 256, 2048] g2))⟩,
       ⟨Rect.unit ![256, 0] ![256, 2048] f1, k0_pay9 (View.ld x0 (Rect.unit ![0, 256, 0] ![1, 256, 2048] g1))⟩,
       ⟨Rect.unit ![0, 0] ![256, 2048] f0, k0_pay6 (View.ld x0 (Rect.unit ![0, 0, 0] ![1, 256, 2048] g0))⟩]
      ((Rect.unit (s := S1024x2048) off ![256, 2048] h).toLoadRect.idx (ix2 j e))
      = featB x0 (chunkIx k j) e := by
  refine (featScratch_apply x0 f0 f1 f2 f3 g0 g1 g2 g3 _).trans ?_
  refine congrArg x0 ?_
  subst hoff
  funext a
  apply Fin.ext
  match a with
  | ⟨0, _⟩ => rfl
  | ⟨1, _⟩ => show 256 * k.val + 1 * j.val = j.val + 256 * k.val; omega
  | ⟨2, _⟩ => show 0 + 1 * e.val = e.val; omega

/-! ## The first output block: the context vector -/

/-- What the body leaves in the context block, at feature `e`: `∑ l, weight l · feature l e` — the four chunks' sums
    added to zero one after the other are the sum over all 1024 positions. -/
theorem out6_apply (c : Dev nD) (i : grid0.Coords) (arg1 : Memref sig .tc .vmem S1x1024x2048 .f32) (harg1 : arg1.IsWhole) (arg2 : Memref sig .tc .vmem S1x1x512 .f32) (harg2 : arg2.IsWhole) (arg3 : Memref sig .tc .vmem S2048x512 .bf16) (harg3 : arg3.IsWhole) (arg4 : Memref sig .tc .vmem S512 .f32) (harg4 : arg4.IsWhole) (arg5 : Memref sig .tc .vmem S512x1 .bf16) (harg5 : arg5.IsWhole) (arg6 : Memref sig .tc .vmem S1 .f32) (harg6 : arg6.IsWhole) (arg7 : Memref sig .tc .vmem S1x1x2048 .f32) (harg7 : arg7.IsWhole) (arg8 : Memref sig .tc .vmem S1x1x1024 .f32) (harg8 : arg8.IsWhole) (arg9 : Memref sig .tc .vmem S1024x2048 .bf16) (harg9 : arg9.IsWhole) (arg10 : Memref sig .tc .vmem S1x1024 .f32) (harg10 : arg10.IsWhole)
    (x0 : Vec Ideal S1x1024x2048 .f32) (x1 : Vec Ideal S1x1x512 .f32) (x2 : Vec Ideal S2048x512 .bf16) (x3 : Vec Ideal S512 .f32) (x4 : Vec Ideal S512x1 .bf16) (x5 : Vec Ideal S1 .f32) (e : Fin 2048) :
    out0_A_6 (F := Ideal) c i arg1 harg1 arg2 harg2 arg3 harg3 arg4 harg4 arg5 harg5 arg6 harg6 arg7 harg7 arg8 harg8 arg9 harg9 arg10 harg10 x0 x1 x2 x3 x4 x5 (ix3 (0 : Fin 1) (0 : Fin 1) e)
      = context (weightB x0 x1 x2 x3 x4 x5) (featB x0) e := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 x0 x1 x2 x3 x4 x5)]
  unfold kernelRun0_A
  dsimp only
  sl_unfold_words
  rw [View.canon_unit_zero hz3]
  simp only [View.readAt_eq_ld, harg1.read_unread, harg2.read_unread, harg3.read_unread, harg4.read_unread, harg5.read_unread, harg6.read_unread,
    View.ld_unit_zero (S := S1) hz1, View.ld_unit_zero (S := S2048x512) hz2, View.ld_unit_zero (S := S512) hz1, View.ld_unit_zero (S := S512x1) hz2, View.ld_unit_zero (S := S1x1x512) hz3]
  simp only [View.readCov_eq_canon', View.canon_cons_unit_zero (S := S1x1024) hz2]
  refine (context_apply _ _ _ _ _ _ _ _ e).trans ?_
  unfold context
  rw [← chain_eq_sum (fun l => weightB x0 x1 x2 x3 x4 x5 l * featB x0 l e)]
  have hSC := fun k : Fin 1024 => scoreReadBack x0 x1 x2 x3 x4 (by decide) (by decide) (by decide) (by decide)
    (by decide) (by decide) (by decide) (by decide) (by decide) k
  refine congrArg₂ (· + ·) (congrArg₂ (· + ·) (congrArg₂ (· + ·) (congrArg₂ (· + ·) rfl ?_) ?_) ?_) ?_
  · refine Finset.sum_congr rfl fun j _ => congrArg₂ (· * ·) ?_ ?_
    · exact weightChunk x0 x1 x2 x3 x4 x5 _ hSC 0 _ rfl _ j
    · exact featReadBack x0 _ _ _ _ _ _ _ _ 0 _ rfl _ j e
  · refine Finset.sum_congr rfl fun j _ => congrArg₂ (· * ·) ?_ ?_
    · exact weightChunk x0 x1 x2 x3 x4 x5 _ hSC 1 _ rfl _ j
    · exact featReadBack x0 _ _ _ _ _ _ _ _ 1 _ rfl _ j e
  · refine Finset.sum_congr rfl fun j _ => congrArg₂ (· * ·) ?_ ?_
    · exact weightChunk x0 x1 x2 x3 x4 x5 _ hSC 2 _ rfl _ j
    · exact featReadBack x0 _ _ _ _ _ _ _ _ 2 _ rfl _ j e
  · refine Finset.sum_congr rfl fun j _ => congrArg₂ (· * ·) ?_ ?_
    · exact weightChunk x0 x1 x2 x3 x4 x5 _ hSC 3 _ rfl _ j
    · exact featReadBack x0 _ _ _ _ _ _ _ _ 3 _ rfl _ j e

end Cert.KernelIdeal.Block

end
-- ==== Proof.HostBefore.lean ====
/-
  The three arrays the host operations compute before the kernel region, read at an index on the extended reals:
  the decoder state's projection  (hidden · W2 + b2)  laid out as [64, 1, 512], and the two weight arrays W1 and V
  narrowed to the 16-bit format, which on the extended reals is the identity.
-/
import proofs.«115363_j63144609185923_2_alg».proof.Defs
import proofs.«115363_j63144609185923_2_alg».proof.Proof.Gen.KernelIdeal.Frame
import proofs.«115363_j63144609185923_2_alg».proof.Proof.Spec
import Idealize.ShloMosaic.Lib.Pipeline.Value
import Idealize.ShloMosaic.Lib.ValueIdx
import Idealize.ShloMosaic.Lib.StableHlo.Run
import Idealize.ShloMosaic.PureOps.Ideal.Laws
import Idealize.ShloMosaic.Lib.Tactic

noncomputable section

namespace Cert.KernelIdeal.HostBefore

open Cert.KernelIdeal Cert.KernelIdeal.Gen Idealize.ShloMosaic Idealize.ShloMosaic.TcCoe Idealize.SL.Sem
  Idealize.ShloMosaic.ValueIdx Idealize.ShloMosaic.StableHlo

variable (m : (ℓ : Loc nD τ sig) → Buf (Elt Ideal) ℓ) (c : Dev nD)

/-- The weight array W1 as the region finds it: the narrowing of the argument. -/
theorem V_v5 : V m c main_v5
    = truncf (F := Ideal) (s := S2048x512) (φ := .f32) .bf16 (m ((c : Thread nD τ).loc main_arg2)) bitsLt_bf16_f32 := by
  show StableHlo.after hostOps0 (fun b => m (c, b)) (Proc.devRef .tc main_v5) = _
  after_results

/-- The weight array V as the region finds it: the narrowing of the argument. -/
theorem V_v6 : V m c main_v6
    = truncf (F := Ideal) (s := S512x1) (φ := .f32) .bf16 (m ((c : Thread nD τ).loc main_arg6)) bitsLt_bf16_f32 := by
  show StableHlo.after hostOps0 (fun b => m (c, b)) (Proc.devRef .tc main_v6) = _
  after_results

/-- The projection as the region finds it: the operations' term of the arguments. -/
theorem V_v4 : V m c main_v4
    = broadcastInDim (α := EReal) S64x1x512 ![0, 2] bcast_S64x512_S64x1x512_0_2
        (addf (F := Ideal) (s := S64x512) (φ := .f32)
          (Host.dotGeneral (F := Ideal) (φ₁ := .f32) (φ₂ := .f32) dot_S64x512_S512x512_S64x512_1_0_0_1_n_n none
            (m ((c : Thread nD τ).loc main_arg1)) (m ((c : Thread nD τ).loc main_arg4)))
          (broadcastInDim (α := EReal) S64x512 ![0, 1] bcast_S1x512_S64x512_0_1
            (broadcastInDim (α := EReal) S1x512 ![1] bcast_S512_S1x512_1 (m ((c : Thread nD τ).loc main_arg5))))) := by
  show StableHlo.after hostOps0 (fun b => m (c, b)) (Proc.devRef .tc main_v4) = _
  after_results

/-! ## The narrowed weight arrays at an index -/

/-- W1 as the region finds it, at (e, a): on the extended reals the narrowing changes nothing. -/
theorem V_W1 (e : Fin 2048) (a : Fin 512) :
    V m c main_v5 (ix2 e a) = m ((c : Thread nD τ).loc main_arg2) (ix2 e a) := by
  rw [V_v5]; rfl

/-- V as the region finds it, at (a, o). -/
theorem V_Vv (a : Fin 512) (o : Fin 1) :
    V m c main_v6 (ix2 a o) = m ((c : Thread nD τ).loc main_arg6) (ix2 a o) := by
  rw [V_v6]; rfl

/-! ## The product hidden · W2 at an index -/

theorem lhs_0 (i : S64x512.Idx) (q : dot_S64x512_S512x512_S64x512_1_0_0_1_n_n.contr.Idx) : (dot_S64x512_S512x512_S64x512_1_0_0_1_n_n.lhsIdx i q 0).val = (i 0).val := by
  unfold DotDims.lhsIdx
  rw [dif_neg (show ¬(0 : Fin S64x512.rank) ∈ dot_S64x512_S512x512_S64x512_1_0_0_1_n_n.lhsBatch by decide),
    dif_pos (show (0 : Fin S64x512.rank) ∈ dot_S64x512_S512x512_S64x512_1_0_0_1_n_n.lhsNonContracting by decide)]
  rfl
theorem lhs_1 (i : S64x512.Idx) (q : dot_S64x512_S512x512_S64x512_1_0_0_1_n_n.contr.Idx) : (dot_S64x512_S512x512_S64x512_1_0_0_1_n_n.lhsIdx i q 1).val = (q ⟨0, by decide⟩).val :=
  dot_S64x512_S512x512_S64x512_1_0_0_1_n_n.lhsIdx_val_of_single rfl i q
theorem rhs_0 (i : S64x512.Idx) (q : dot_S64x512_S512x512_S64x512_1_0_0_1_n_n.contr.Idx) : (dot_S64x512_S512x512_S64x512_1_0_0_1_n_n.rhsIdx i q 0).val = (q ⟨0, by decide⟩).val :=
  dot_S64x512_S512x512_S64x512_1_0_0_1_n_n.rhsIdx_val_of_single rfl i q
theorem rhs_1 (i : S64x512.Idx) (q : dot_S64x512_S512x512_S64x512_1_0_0_1_n_n.contr.Idx) : (dot_S64x512_S512x512_S64x512_1_0_0_1_n_n.rhsIdx i q 1).val = (i 1).val := by
  unfold DotDims.rhsIdx
  rw [dif_neg (show ¬(1 : Fin S512x512.rank) ∈ dot_S64x512_S512x512_S64x512_1_0_0_1_n_n.rhsBatch by decide),
    dif_pos (show (1 : Fin S512x512.rank) ∈ dot_S64x512_S512x512_S64x512_1_0_0_1_n_n.rhsNonContracting by decide)]
  rfl

/-- The host's product of a [64, 512] by a [512, 512] array, at (b, a), is the sum over the contracted coordinate. -/
theorem dot_apply (x1 : FVec Ideal S64x512 .f32) (x4 : FVec Ideal S512x512 .f32) (b : Fin 64) (a : Fin 512) :
    Host.dotGeneral (F := Ideal) dot_S64x512_S512x512_S64x512_1_0_0_1_n_n none x1 x4 (ix2 b a) = ∑ k : Fin 512, x1 (ix2 b k) * x4 (ix2 k a) := by
  simp only [Host.dotGeneral]
  rw [Ideal.dotGeneral_apply, ← Equiv.sum_comp (contrEquiv1 dot_S64x512_S512x512_S64x512_1_0_0_1_n_n 512 rfl rfl).symm]
  refine Finset.sum_congr rfl fun k _ => ?_
  have hk := contrEquiv1_symm_val dot_S64x512_S512x512_S64x512_1_0_0_1_n_n 512 rfl rfl k
  have el : dot_S64x512_S512x512_S64x512_1_0_0_1_n_n.lhsIdx (ix2 b a) ((contrEquiv1 dot_S64x512_S512x512_S64x512_1_0_0_1_n_n 512 rfl rfl).symm k) = ix2 b k := funext fun d => Fin.ext (by
    match d with
    | ⟨0, _⟩ => exact lhs_0 _ _
    | ⟨1, _⟩ => exact (lhs_1 _ _).trans hk)
  have er : dot_S64x512_S512x512_S64x512_1_0_0_1_n_n.rhsIdx (ix2 b a) ((contrEquiv1 dot_S64x512_S512x512_S64x512_1_0_0_1_n_n 512 rfl rfl).symm k) = ix2 k a := funext fun d => Fin.ext (by
    match d with
    | ⟨0, _⟩ => exact (rhs_0 _ _).trans hk
    | ⟨1, _⟩ => exact rhs_1 _ _)
  rw [el, er]

/-! ## The projection at an index -/

/-- The projection as the region finds it, at (b, u, a): the sum over the decoder state's coordinates plus the bias. -/
theorem V_ph (b : Fin 64) (u : Fin 1) (a : Fin 512) :
    V m c main_v4 (ix3 b u a)
      = Cert.Attn.projH (m ((c : Thread nD τ).loc main_arg1)) (m ((c : Thread nD τ).loc main_arg4))
          (m ((c : Thread nD τ).loc main_arg5)) b a := by
  rw [V_v4]
  rw [broadcastInDim_apply _ bcast_S64x512_S64x1x512_0_2 _ (ix3 b u a) (ix2 b a) (fun d => match d with
    | ⟨0, _⟩ => by show b.val = if (64 : Nat) = 1 then 0 else b.val; rw [if_neg (by decide)]
    | ⟨1, _⟩ => by show a.val = if (512 : Nat) = 1 then 0 else a.val; rw [if_neg (by decide)])]
  rw [addf_apply, dot_apply]
  rw [broadcastInDim_apply _ bcast_S1x512_S64x512_0_1 _ (ix2 b a) (ix2 (0 : Fin 1) a) (fun d => match d with
    | ⟨0, _⟩ => by show 0 = if (1 : Nat) = 1 then 0 else b.val; rw [if_pos rfl]
    | ⟨1, _⟩ => by show a.val = if (512 : Nat) = 1 then 0 else a.val; rw [if_neg (by decide)])]
  rw [broadcastInDim_apply _ bcast_S512_S1x512_1 _ (ix2 (0 : Fin 1) a) (ix1 a) (fun d => match d with
    | ⟨0, _⟩ => by show a.val = if (512 : Nat) = 1 then 0 else a.val; rw [if_neg (by decide)])]
  rfl

end Cert.KernelIdeal.HostBefore

end
-- ==== Proof.Blocks.lean ====
/-
  One batch's blocks are one batch of the arrays.

  The grid has one point per batch: at point `t` every batch-indexed window (features, projected decoder state, both
  outputs) is at block `(t, 0, 0)` and every shared window (W1, b1, V, bv) at block zero. So the blocks the body sees
  at point `t` are batch `t` of the argument arrays (the projected state being `hidden · W2 + b2`, computed before the
  region), what the body writes back is batch `t` of the attention weights and of the context vectors, and the 64
  points' blocks cover the two result arrays.
-/
import proofs.«115363_j63144609185923_2_alg».proof.Defs
import proofs.«115363_j63144609185923_2_alg».proof.Proof.Gen.KernelIdeal.Frame
import proofs.«115363_j63144609185923_2_alg».proof.Proof.Spec
import proofs.«115363_j63144609185923_2_alg».proof.Proof.Pieces
import proofs.«115363_j63144609185923_2_alg».proof.Proof.HostBefore
import proofs.«115363_j63144609185923_2_alg».proof.Proof.Results
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Block Cert.KernelIdeal.HostBefore Cert.KernelIdeal.Results Cert.Attn

variable (m : (ℓ : Loc nD τ sig) → Buf (Elt Ideal) ℓ) (ρ : Dev nD → PrngReg)

/-- The printed index maps, decided over the 64 points: batch-indexed windows sit at block `(t, 0, 0)`, shared ones at zero. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 3) = t.val ∧ win0_6.index t (1 : Fin 3) = 0 ∧ win0_6.index t (2 : Fin 3) = 0
    ∧ win0_7.index t (0 : Fin 3) = t.val ∧ win0_7.index t (1 : Fin 3) = 0 ∧ win0_7.index t (2 : Fin 3) = 0 :=
  (by decide +kernel : ∀ t : Fin grid0.N, _)

/-- The batch a grid point works on. -/
def batch (t : Fin cfg0.N) : Fin 64 := ⟨t.val, by have h : cfg0.N = 64 := N_0; have := t.isLt; omega⟩

/-! ## The input blocks at point `t` -/

theorem blk_feat (c : Dev nD) (t : Fin cfg0.N) (l : Fin 1024) (e : Fin 2048) :
    iblk m c 0 t (ix3 (0 : Fin 1) l e) = m ((c : Thread nD τ).loc main_arg0) (ix3 (batch t) l e) := by
  obtain ⟨e0, e1, e2, -⟩ := idx_facts t
  show V m c main_arg0 (((cfg0.win 0).blk t).view.emb (ix3 (0 : Fin 1) l e)) = _
  rw [V_main_arg0]
  refine congrArg _ ?_
  funext a
  apply Fin.ext
  match a with
  | ⟨0, _⟩ => show win0_0.index t (0 : Fin 3) * 1 + 1 * 0 = t.val; omega
  | ⟨1, _⟩ => show win0_0.index t (1 : Fin 3) * 1024 + 1 * l.val = l.val; omega
  | ⟨2, _⟩ => show win0_0.index t (2 : Fin 3) * 2048 + 1 * e.val = e.val; omega

theorem blk_ph (c : Dev nD) (t : Fin cfg0.N) (a : Fin 512) :
    iblk m c 1 t (ix3 (0 : Fin 1) (0 : Fin 1) a)
      = projH (m ((c : Thread nD τ).loc main_arg1)) (m ((c : Thread nD τ).loc main_arg4)) (m ((c : Thread nD τ).loc main_arg5)) (batch t) a := by
  obtain ⟨-, -, -, e0, e1, e2, -⟩ := idx_facts t
  show V m c main_v4 (((cfg0.win 1).blk t).view.emb (ix3 (0 : Fin 1) (0 : Fin 1) a)) = _
  refine Eq.trans (congrArg _ ?_) (V_ph m c (batch t) (0 : Fin 1) a)
  funext b
  apply Fin.ext
  match b with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 512 + 1 * a.val = a.val; omega

theorem blk_W1 (c : Dev nD) (t : Fin cfg0.N) (e : Fin 2048) (a : Fin 512) :
    iblk m c 2 t (ix2 e a) = m ((c : Thread nD τ).loc main_arg2) (ix2 e a) := by
  obtain ⟨-, -, -, -, -, -, e0, e1, -⟩ := idx_facts t
  show V m c main_v5 (((cfg0.win 2).blk t).view.emb (ix2 e a)) = _
  refine Eq.trans (congrArg _ ?_) (V_W1 m c e a)
  funext b
  apply Fin.ext
  match b with
  | ⟨0, _⟩ => show win0_2.index t (0 : Fin 2) * 2048 + 1 * e.val = e.val; omega
  | ⟨1, _⟩ => show win0_2.index t (1 : Fin 2) * 512 + 1 * a.val = a.val; omega

theorem blk_b1 (c : Dev nD) (t : Fin cfg0.N) (a : Fin 512) :
    iblk m c 3 t (ix1 a) = m ((c : Thread nD τ).loc main_arg3) (ix1 a) := by
  obtain ⟨-, -, -, -, -, -, -, -, e0, -⟩ := idx_facts t
  show V m c main_arg3 (((cfg0.win 3).blk t).view.emb (ix1 a)) = _
  rw [V_main_arg3]
  refine congrArg _ ?_
  funext b
  apply Fin.ext
  match b with
  | ⟨0, _⟩ => show win0_3.index t (0 : Fin 1) * 512 + 1 * a.val = a.val; omega

theorem blk_V (c : Dev nD) (t : Fin cfg0.N) (a : Fin 512) :
    iblk m c 4 t (ix2 a (0 : Fin 1)) = m ((c : Thread nD τ).loc main_arg6) (ix2 a (0 : Fin 1)) := by
  obtain ⟨-, -, -, -, -, -, -, -, -, e0, e1, -⟩ := idx_facts t
  show V m c main_v6 (((cfg0.win 4).blk t).view.emb (ix2 a (0 : Fin 1))) = _
  refine Eq.trans (congrArg _ ?_) (V_Vv m c a (0 : Fin 1))
  funext b
  apply Fin.ext
  match b with
  | ⟨0, _⟩ => show win0_4.index t (0 : Fin 2) * 512 + 1 * a.val = a.val; omega
  | ⟨1, _⟩ => show win0_4.index t (1 : Fin 2) * 1 + 1 * 0 = 0; omega

theorem blk_bv (c : Dev nD) (t : Fin cfg0.N) :
    iblk m c 5 t (ix1 (0 : Fin 1)) = m ((c : Thread nD τ).loc main_arg7) (ix1 (0 : Fin 1)) := by
  obtain ⟨-, -, -, -, -, -, -, -, -, -, -, e0, -⟩ := idx_facts t
  show V m c main_arg7 (((cfg0.win 5).blk t).view.emb (ix1 (0 : Fin 1))) = _
  rw [V_main_arg7]
  refine congrArg _ ?_
  funext b
  apply Fin.ext
  match b with
  | ⟨0, _⟩ => show win0_5.index t (0 : Fin 1) * 1 + 1 * 0 = 0; omega

/-- The batch's weights computed from the blocks at point `t` are batch `t` of the weights of the argument arrays. -/
theorem weightB_blocks (c : Dev nD) (t : Fin cfg0.N) :
    weightB (iblk m c 0 t) (iblk m c 1 t) (iblk m c 2 t) (iblk m c 3 t) (iblk m c 4 t) (iblk m c 5 t)
      = weights (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (batch t) := by
  have h0 : (fun (l : Fin 1024) (e : Fin 2048) => iblk m c 0 t (ix3 (0 : Fin 1) l e)) = fun l e => (m ((c : Thread nD τ).loc main_arg0)) (ix3 (batch t) l e) :=
    funext fun l => funext fun e => blk_feat m c t l e
  have h1 : (fun a : Fin 512 => iblk m c 1 t (ix3 (0 : Fin 1) (0 : Fin 1) a)) = projH (m ((c : Thread nD τ).loc main_arg1)) (m ((c : Thread nD τ).loc main_arg4)) (m ((c : Thread nD τ).loc main_arg5)) (batch t) :=
    funext fun a => blk_ph m c t a
  have h2 : (fun (e : Fin 2048) (a : Fin 512) => iblk m c 2 t (ix2 e a)) = fun e a => (m ((c : Thread nD τ).loc main_arg2)) (ix2 e a) :=
    funext fun e => funext fun a => blk_W1 m c t e a
  have h3 : (fun a : Fin 512 => iblk m c 3 t (ix1 a)) = fun a => (m ((c : Thread nD τ).loc main_arg3)) (ix1 a) := funext fun a => blk_b1 m c t a
  have h4 : (fun a : Fin 512 => iblk m c 4 t (ix2 a (0 : Fin 1))) = fun a => (m ((c : Thread nD τ).loc main_arg6)) (ix2 a (0 : Fin 1)) := funext fun a => blk_V m c t a
  have h5 := blk_bv m c t
  unfold weightB scoreB preScoreB featB weights scores score
  rw [h0, h1, h2, h3, h4, h5]

theorem featB_blocks (c : Dev nD) (t : Fin cfg0.N) :
    featB (iblk m c 0 t) = fun l e => (m ((c : Thread nD τ).loc main_arg0)) (ix3 (batch t) l e) :=
  funext fun l => funext fun e => blk_feat m c t l e

end Cert.KernelIdeal.Arrays

end
-- ==== Proof.Arrays.lean ====
/-
  From one batch's blocks to the whole arrays: what each grid point writes back is its batch's block of the attention
  weights and of the context vectors, and the 64 points' blocks cover the two arrays the region writes.
-/
import proofs.«115363_j63144609185923_2_alg».proof.Defs
import proofs.«115363_j63144609185923_2_alg».proof.Proof.Gen.KernelIdeal.Frame
import proofs.«115363_j63144609185923_2_alg».proof.Proof.Spec
import proofs.«115363_j63144609185923_2_alg».proof.Proof.Pieces
import proofs.«115363_j63144609185923_2_alg».proof.Proof.Blocks
import proofs.«115363_j63144609185923_2_alg».proof.Proof.Results
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Block Cert.KernelIdeal.Results Cert.Attn

variable (m : (ℓ : Loc nD τ sig) → Buf (Elt Ideal) ℓ) (ρ : Dev nD → PrngReg)

/-! ## The body's two blocks at any index of the block -/

/-- The weights block the body leaves, at any index of the block: the lane is the position. -/
theorem out7_at (c : Dev nD) (i : grid0.Coords) (arg1 : Memref sig .tc .vmem S1x1024x2048 .f32) (harg1 : arg1.IsWhole) (arg2 : Memref sig .tc .vmem S1x1x512 .f32) (harg2 : arg2.IsWhole) (arg3 : Memref sig .tc .vmem S2048x512 .bf16) (harg3 : arg3.IsWhole) (arg4 : Memref sig .tc .vmem S512 .f32) (harg4 : arg4.IsWhole) (arg5 : Memref sig .tc .vmem S512x1 .bf16) (harg5 : arg5.IsWhole) (arg6 : Memref sig .tc .vmem S1 .f32) (harg6 : arg6.IsWhole) (arg7 : Memref sig .tc .vmem S1x1x2048 .f32) (harg7 : arg7.IsWhole) (arg8 : Memref sig .tc .vmem S1x1x1024 .f32) (harg8 : arg8.IsWhole) (arg9 : Memref sig .tc .vmem S1024x2048 .bf16) (harg9 : arg9.IsWhole) (arg10 : Memref sig .tc .vmem S1x1024 .f32) (harg10 : arg10.IsWhole)
    (x0 : Vec Ideal S1x1024x2048 .f32) (x1 : Vec Ideal S1x1x512 .f32) (x2 : Vec Ideal S2048x512 .bf16) (x3 : Vec Ideal S512 .f32) (x4 : Vec Ideal S512x1 .bf16) (x5 : Vec Ideal S1 .f32) (y : S1x1x1024.Idx) :
    out0_A_7 (F := Ideal) c i arg1 harg1 arg2 harg2 arg3 harg3 arg4 harg4 arg5 harg5 arg6 harg6 arg7 harg7 arg8 harg8 arg9 harg9 arg10 harg10 x0 x1 x2 x3 x4 x5 y = weightB x0 x1 x2 x3 x4 x5 ⟨(y 2).val, (y 2).isLt⟩ := by
  obtain ⟨u, v, l, rfl⟩ : ∃ (u : Fin 1) (v : Fin 1) (l : Fin 1024), y = ix3 u v l := ⟨y 0, y 1, y 2, eq_ix3 y⟩
  obtain rfl : u = 0 := Subsingleton.elim _ _
  obtain rfl : v = 0 := Subsingleton.elim _ _
  exact out7_apply c i arg1 harg1 arg2 harg2 arg3 harg3 arg4 harg4 arg5 harg5 arg6 harg6 arg7 harg7 arg8 harg8 arg9 harg9 arg10 harg10 x0 x1 x2 x3 x4 x5 l

/-- The context block the body leaves, at any index of the block: the lane is the feature. -/
theorem out6_at (c : Dev nD) (i : grid0.Coords) (arg1 : Memref sig .tc .vmem S1x1024x2048 .f32) (harg1 : arg1.IsWhole) (arg2 : Memref sig .tc .vmem S1x1x512 .f32) (harg2 : arg2.IsWhole) (arg3 : Memref sig .tc .vmem S2048x512 .bf16) (harg3 : arg3.IsWhole) (arg4 : Memref sig .tc .vmem S512 .f32) (harg4 : arg4.IsWhole) (arg5 : Memref sig .tc .vmem S512x1 .bf16) (harg5 : arg5.IsWhole) (arg6 : Memref sig .tc .vmem S1 .f32) (harg6 : arg6.IsWhole) (arg7 : Memref sig .tc .vmem S1x1x2048 .f32) (harg7 : arg7.IsWhole) (arg8 : Memref sig .tc .vmem S1x1x1024 .f32) (harg8 : arg8.IsWhole) (arg9 : Memref sig .tc .vmem S1024x2048 .bf16) (harg9 : arg9.IsWhole) (arg10 : Memref sig .tc .vmem S1x1024 .f32) (harg10 : arg10.IsWhole)
    (x0 : Vec Ideal S1x1024x2048 .f32) (x1 : Vec Ideal S1x1x512 .f32) (x2 : Vec Ideal S2048x512 .bf16) (x3 : Vec Ideal S512 .f32) (x4 : Vec Ideal S512x1 .bf16) (x5 : Vec Ideal S1 .f32) (y : S1x1x2048.Idx) :
    out0_A_6 (F := Ideal) c i arg1 harg1 arg2 harg2 arg3 harg3 arg4 harg4 arg5 harg5 arg6 harg6 arg7 harg7 arg8 harg8 arg9 harg9 arg10 harg10 x0 x1 x2 x3 x4 x5 y = context (weightB x0 x1 x2 x3 x4 x5) (featB x0) ⟨(y 2).val, (y 2).isLt⟩ := by
  obtain ⟨u, v, e, rfl⟩ : ∃ (u : Fin 1) (v : Fin 1) (e : Fin 2048), y = ix3 u v e := ⟨y 0, y 1, y 2, eq_ix3 y⟩
  obtain rfl : u = 0 := Subsingleton.elim _ _
  obtain rfl : v = 0 := Subsingleton.elim _ _
  exact out6_apply c i arg1 harg1 arg2 harg2 arg3 harg3 arg4 harg4 arg5 harg5 arg6 harg6 arg7 harg7 arg8 harg8 arg9 harg9 arg10 harg10 x0 x1 x2 x3 x4 x5 e

/-! ## What point `t` writes back -/

/-- The weights block written back at point `t` is batch `t` of the weights. -/
theorem flushed7_eq (c : Dev nD) (t : Fin cfg0.N) :
    (dats m 0 c).flushed 7 t = ((cfg0.win 7).blk t).view.read (Elt Ideal) (regionW m c) := by
  obtain ⟨-, -, -, -, -, -, -, -, -, -, -, -, -, -, -, e0, e1, e2⟩ := idx_facts t
  show (cfg0.win 7).cut (grid0.coords t) ((dats m 0 c).after 7 t) = _
  rw [after0_7]
  funext y
  rw [View.read_apply]
  show (outsAt0 m c t).2 ((cfg0.win 7).xinj (grid0.coords t) y) = regionW m c (((cfg0.win 7).blk t).view.emb y)
  unfold outsAt0
  dsimp only
  refine (out7_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) ((cfg0.win 7).xinj (grid0.coords t) y)).trans ?_
  rw [weightB_blocks]
  unfold regionW
  have hy0 : (y 0).val < 1 := ((cfg0.win 7).xinj (grid0.coords t) y 0).isLt
  refine congrArg₂ (W m c) (Fin.ext ?_) (Fin.ext ?_)
  · show t.val = win0_7.index t (0 : Fin 3) * 1 + 1 * (y 0).val
    omega
  · show (y 2).val = win0_7.index t (2 : Fin 3) * 1024 + 1 * (y 2).val
    omega

/-- The context block written back at point `t` is batch `t` of the context vectors. -/
theorem flushed6_eq (c : Dev nD) (t : Fin cfg0.N) :
    (dats m 0 c).flushed 6 t = ((cfg0.win 6).blk t).view.read (Elt Ideal) (regionCtx m c) := by
  obtain ⟨-, -, -, -, -, -, -, -, -, -, -, -, e0, e1, e2, -⟩ := idx_facts t
  show (cfg0.win 6).cut (grid0.coords t) ((dats m 0 c).after 6 t) = _
  rw [after0_6]
  funext y
  rw [View.read_apply]
  show (outsAt0 m c t).1 ((cfg0.win 6).xinj (grid0.coords t) y) = regionCtx m c (((cfg0.win 6).blk t).view.emb y)
  unfold outsAt0
  dsimp only
  refine (out6_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) (iblk m c 5 t) ((cfg0.win 6).xinj (grid0.coords t) y)).trans ?_
  rw [weightB_blocks, featB_blocks]
  unfold regionCtx
  have hy0 : (y 0).val < 1 := ((cfg0.win 6).xinj (grid0.coords t) y 0).isLt
  refine congrArg₂ (C m c) (Fin.ext ?_) (Fin.ext ?_)
  · show t.val = win0_6.index t (0 : Fin 3) * 1 + 1 * (y 0).val
    omega
  · show (y 2).val = win0_6.index t (2 : Fin 3) * 2048 + 1 * (y 2).val
    omega

/-! ## The 64 blocks cover each result array -/

theorem mem_blk7 (t : Fin cfg0.N) (i : S64x1x1024.Idx) :
    i ∈ ((cfg0.win 7).blk t).view.set ↔ ∀ a : Fin 3, win0_7.index t a * S1x1x1024.size a ≤ (i a).val ∧ (i a).val < win0_7.index t a * S1x1x1024.size a + S1x1x1024.size a := by
  show i ∈ ((View.whole main_v7_1).slice (win0_7.rect t)).set ↔ _
  rw [View.set_slice_whole, Rect.mem_set_unit]
  exact Iff.rfl

theorem mem_blk6 (t : Fin cfg0.N) (i : S64x1x2048.Idx) :
    i ∈ ((cfg0.win 6).blk t).view.set ↔ ∀ a : Fin 3, win0_6.index t a * S1x1x2048.size a ≤ (i a).val ∧ (i a).val < win0_6.index t a * S1x1x2048.size a + S1x1x2048.size a := by
  show i ∈ ((View.whole main_v7_0).slice (win0_6.rect t)).set ↔ _
  rw [View.set_slice_whole, Rect.mem_set_unit]
  exact Iff.rfl

/-- Index `(b, 0, l)` of the weights array is in the block of point `b`. -/
theorem cover7 (i : S64x1x1024.Idx) : ∃ t : Fin cfg0.N, (cfg0.win 7).flush t = true ∧ i ∈ ((cfg0.win 7).blk t).view.set := by
  have hi0 : (i 0).val < 64 := (i 0).isLt
  have hi1 : (i 1).val < 1 := (i 1).isLt
  have hi2 : (i 2).val < 1024 := (i 2).isLt
  have hN : cfg0.N = 64 := N_0
  obtain ⟨-, -, -, -, -, -, -, -, -, -, -, -, -, -, -, e0, e1, e2⟩ := idx_facts ⟨(i 0).val, by omega⟩
  refine ⟨⟨(i 0).val, by omega⟩, flush0_7 _, ?_⟩
  rw [mem_blk7]
  intro a
  match a with
  | ⟨0, _⟩ => show win0_7.index ⟨(i 0).val, _⟩ (0 : Fin 3) * 1 ≤ (i 0).val ∧ (i 0).val < win0_7.index ⟨(i 0).val, _⟩ (0 : Fin 3) * 1 + 1; dsimp only at e0; omega
  | ⟨1, _⟩ => show win0_7.index ⟨(i 0).val, _⟩ (1 : Fin 3) * 1 ≤ (i 1).val ∧ (i 1).val < win0_7.index ⟨(i 0).val, _⟩ (1 : Fin 3) * 1 + 1; omega
  | ⟨2, _⟩ => show win0_7.index ⟨(i 0).val, _⟩ (2 : Fin 3) * 1024 ≤ (i 2).val ∧ (i 2).val < win0_7.index ⟨(i 0).val, _⟩ (2 : Fin 3) * 1024 + 1024; omega

/-- Index `(b, 0, e)` of the context array is in the block of point `b`. -/
theorem cover6 (i : S64x1x2048.Idx) : ∃ t : Fin cfg0.N, (cfg0.win 6).flush t = true ∧ i ∈ ((cfg0.win 6).blk t).view.set := by
  have hi0 : (i 0).val < 64 := (i 0).isLt
  have hi1 : (i 1).val < 1 := (i 1).isLt
  have hi2 : (i 2).val < 2048 := (i 2).isLt
  have hN : cfg0.N = 64 := N_0
  obtain ⟨-, -, -, -, -, -, -, -, -, -, -, -, e0, e1, e2, -⟩ := idx_facts ⟨(i 0).val, by omega⟩
  refine ⟨⟨(i 0).val, by omega⟩, flush0_6 _, ?_⟩
  rw [mem_blk6]
  intro a
  match a with
  | ⟨0, _⟩ => show win0_6.index ⟨(i 0).val, _⟩ (0 : Fin 3) * 1 ≤ (i 0).val ∧ (i 0).val < win0_6.index ⟨(i 0).val, _⟩ (0 : Fin 3) * 1 + 1; dsimp only at e0; omega
  | ⟨1, _⟩ => show win0_6.index ⟨(i 0).val, _⟩ (1 : Fin 3) * 1 ≤ (i 1).val ∧ (i 1).val < win0_6.index ⟨(i 0).val, _⟩ (1 : Fin 3) * 1 + 1; omega
  | ⟨2, _⟩ => show win0_6.index ⟨(i 0).val, _⟩ (2 : Fin 3) * 2048 ≤ (i 2).val ∧ (i 2).val < win0_6.index ⟨(i 0).val, _⟩ (2 : Fin 3) * 2048 + 2048; omega

/-! ## The two arrays after the region -/

theorem final7 (c : Dev nD) : (dats m 0 c).arrAt 7 cfg0.N = regionW m c :=
  (dats m 0 c).arrAt_eq_of_cover 7 (regionW m c) (fun t _ => flushed7_eq m c t) cover7

theorem final6 (c : Dev nD) : (dats m 0 c).arrAt 6 cfg0.N = regionCtx m c :=
  (dats m 0 c).arrAt_eq_of_cover 6 (regionCtx m c) (fun t _ => flushed6_eq m c t) cover6

end Cert.KernelIdeal.Arrays

end
-- ==== Proof.KernelRun.lean ====
/-
  The idealized kernel program's run with its two results named: if the region leaves the context vectors and the
  attention weights in its two output arrays, the program ends with the context vectors (the unit axis dropped) and the
  weights (the last two axes exchanged) in its results, and every argument as launched.
-/
import proofs.«115363_j63144609185923_2_alg».proof.Defs
import proofs.«115363_j63144609185923_2_alg».proof.Proof.Gen.KernelIdeal.Frame
import proofs.«115363_j63144609185923_2_alg».proof.Proof.Spec
import proofs.«115363_j63144609185923_2_alg».proof.Proof.Results
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.KernelRun

open Cert.KernelIdeal Cert.KernelIdeal.Gen Idealize.ShloMosaic Idealize.ShloMosaic.TcCoe Idealize.SL.Sem
  Idealize.ShloMosaic.ValueIdx Idealize.ShloMosaic.StableHlo Cert.KernelIdeal.Results
open Idealize.ShloMosaic.Pipeline (Dat)

variable (m : (ℓ : Loc nD τ sig) → Buf (Elt Ideal) ℓ) (ρ : Dev nD → PrngReg)

/-! ## The two layout operations after the region, at an index -/

/-- An `[a, 1, b]` array cast to `[a, b]` reads, at `(i, j)`, the operand at `(i, 0, j)`: the two indices have the
    same row-major position. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- The context vectors with the unit axis dropped. -/
theorem reshape_regionCtx (c : Dev nD) :
    shapeCast S64x2048 (regionCtx m c) shapeCasts_S64x1x2048_S64x2048 = resCtx m c := by
  funext i
  obtain ⟨b, e, rfl⟩ : ∃ (b : Fin 64) (e : Fin 2048), i = ix2 b e := ⟨i 0, i 1, eq_ix2 i⟩
  exact shapeCast_a1b_ab_apply (regionCtx m c) shapeCasts_S64x1x2048_S64x2048 b e

/-- The weights with the last two axes exchanged. -/
theorem transpose_regionW (c : Dev nD) :
    transpose S64x1024x1 [0, 2, 1] (regionW m c) transposes_S64x1x1024_S64x1024x1_0_2_1 = resW m c := by
  funext i
  obtain ⟨b, l, o, rfl⟩ : ∃ (b : Fin 64) (l : Fin 1024) (o : Fin 1), i = ix3 b l o := ⟨i 0, i 1, i 2, eq_ix3 i⟩
  exact transpose_ix3_021_apply (regionW m c) transposes_S64x1x1024_S64x1024x1_0_2_1 b l o

/-! ## What the host operations after the region leave in the two results -/

theorem tail_v8 (c : Dev nD) (h6 : (dats m 0 c).arrAt 6 cfg0.N = regionCtx m c) :
    Pipeline.afterTail₀ cfgs (dats m) 0 (V0 m) [hostOps1] c main_v8 = resCtx m c := by
  unfold Pipeline.afterTail₀
  show StableHlo.after hostOps1 _ (Proc.devRef .tc main_v8) = _
  after_results
  rw [(Pipeline.withArrays_arr spec0 launch0.win.arr_inj c _ _ 6).trans h6]
  exact reshape_regionCtx m c

theorem tail_v9 (c : Dev nD) (h7 : (dats m 0 c).arrAt 7 cfg0.N = regionW m c) :
    Pipeline.afterTail₀ cfgs (dats m) 0 (V0 m) [hostOps1] c main_v9 = resW m c := by
  unfold Pipeline.afterTail₀
  show StableHlo.after hostOps1 _ (Proc.devRef .tc main_v9) = _
  after_results
  rw [(Pipeline.withArrays_arr spec0 launch0.win.arr_inj c _ _ 7).trans h7]
  exact transpose_regionW m c

/-! ## The run -/

/-- If the region leaves the context vectors and the weights in its two output arrays, every weakly fair execution of
    the program ends with them, laid out as the results are, in the two results, and with every argument as launched. -/
theorem run_of_finals (h6 : ∀ c : Dev nD, (dats m 0 c).arrAt 6 cfg0.N = regionCtx m c)
    (h7 : ∀ c : Dev nD, (dats m 0 c).arrAt 7 cfg0.N = regionW m c) :
    θ_run defs (onTc (τ := τ) (main (F := Ideal))) ⟨m, fun _ => 0, ρ⟩ fun r => ∀ c : Dev nD,
      r.2.mem ((c.tc : Thread nD τ).loc main_v8) = resCtx m c
      ∧ r.2.mem ((c.tc : Thread nD τ).loc main_v9) = resW m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v8 (Pipeline.mem_restRefs_of main_v8 (by decide) (by decide))).trans (tail_v8 m c (h6 c)),
      ((h c).2 main_v9 (Pipeline.mem_restRefs_of main_v9 (by decide) (by decide))).trans (tail_v9 m c (h7 c)),
      ((h c).1 0).trans ((((dats m) 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans ((((dats m) 0 c).arrAt_in 3 rfl _).trans ((A_eq m c 3).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 5).trans ((((dats m) 0 c).arrAt_in 5 rfl _).trans ((A_eq m c 5).trans (V_main_arg7 m c)))⟩)
    (run_main m ρ)

end Cert.KernelIdeal.KernelRun

end
-- ==== Proof.lean ====
/-
  Additive (Bahdanau) attention over 64 batches of 1024 positions with 2048 features: a kernel that, per batch, scores
  the positions in four chunks of 256 rows — `tanh (features · W1 + b1 + (hidden · W2 + b2)) · V`, the decoder
  projection computed once before the kernel —, takes the softmax of the 1024 scores shifted by `bv`, and accumulates
  the context `∑ weight · feature row` chunk by chunk from zero, against the same computation written with whole-array
  operations.

  Over the extended reals the two agree, with no use of the finiteness of the inputs: a change of float format is the
  identity; a matrix product into a zero accumulator and a host contraction are the same sum of products; the
  reference's extra maximum with −∞ is absorbed by the fold of `max` that already starts there; and the chain of four
  chunk sums added to zero is the sum over all positions (associativity of `+` and `0 + x = x`).

  The three frames are the programs' runs (the kernel's generated whole; the reference's its generated run with the
  results dropped). No rewrite was made in printing the idealized kernel, so nothing is to be preserved. For the
  equivalence both result arrays of both programs are shown to be the attention weights and the context vectors of
  the specification (`Cert.Attn.weights`, `Cert.Attn.contexts`) of the argument arrays.
-/
import proofs.«115363_j63144609185923_2_alg».proof.Defs
import proofs.«115363_j63144609185923_2_alg».proof.Proof.Gen.Kernel
import proofs.«115363_j63144609185923_2_alg».proof.Proof.Gen.Kernel.Skeleton
import proofs.«115363_j63144609185923_2_alg».proof.Proof.Gen.Kernel.Launch
import proofs.«115363_j63144609185923_2_alg».proof.Proof.Gen.Kernel.Points
import proofs.«115363_j63144609185923_2_alg».proof.Proof.Gen.Kernel.Frame
import proofs.«115363_j63144609185923_2_alg».proof.Proof.Gen.KernelIdeal
import proofs.«115363_j63144609185923_2_alg».proof.Proof.Gen.KernelIdeal.Skeleton
import proofs.«115363_j63144609185923_2_alg».proof.Proof.Gen.KernelIdeal.Launch
import proofs.«115363_j63144609185923_2_alg».proof.Proof.Gen.KernelIdeal.Points
import proofs.«115363_j63144609185923_2_alg».proof.Proof.Gen.KernelIdeal.Frame
import proofs.«115363_j63144609185923_2_alg».proof.Proof.Gen.ReferenceIdeal
import proofs.«115363_j63144609185923_2_alg».proof.Proof.Gen.Pre_finite_inputs
import proofs.«115363_j63144609185923_2_alg».proof.Proof.RefRead
import proofs.«115363_j63144609185923_2_alg».proof.Proof.Results
import proofs.«115363_j63144609185923_2_alg».proof.Proof.Arrays
import proofs.«115363_j63144609185923_2_alg».proof.Proof.KernelRun
import Idealize.ShloMosaic.Adequacy
import Idealize.ShloMosaic.Init

noncomputable section

namespace Cert.Proof

open Idealize.ShloMosaic Idealize.SL.Sem Cert.Kernel

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten in printing the idealized kernel. -/
theorem preserves : Cert.preserves_Kernel_KernelIdeal := trivial

/-- From memories that agree on the arguments both programs end with the context vectors and the attention weights of
    the specification: the kernel's region writes them batch by batch and the two host operations after it only drop a
    unit axis and exchange two axes; the reference's stages, read index by index, are the same formulas. -/
theorem algebraic : Cert.algebraic_KernelIdeal_ReferenceIdeal := by
  intro m ρ m' ρ' _ hagree
  refine ⟨fun c => Cert.KernelIdeal.Results.resCtx m c, fun c => Cert.KernelIdeal.Results.resW m c,
    Cert.KernelIdeal.KernelRun.run_of_finals m ρ (Cert.KernelIdeal.Arrays.final6 m) (Cert.KernelIdeal.Arrays.final7 m), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v29_eq, (hagree c).1, (hagree c).2.1, (hagree c).2.2.1, (hagree c).2.2.2.1, (hagree c).2.2.2.2.1, (hagree c).2.2.2.2.2.1, (hagree c).2.2.2.2.2.2.1, (hagree c).2.2.2.2.2.2.2]
    funext i
    exact Cert.ReferenceIdeal.RefValue.contexts_eq _ _ _ _ _ _ _ _ i
  · rw [Cert.ReferenceIdeal.Read.val_main_v26_eq, (hagree c).1, (hagree c).2.1, (hagree c).2.2.1, (hagree c).2.2.2.1, (hagree c).2.2.2.2.1, (hagree c).2.2.2.2.2.1, (hagree c).2.2.2.2.2.2.1, (hagree c).2.2.2.2.2.2.2]
    funext i
    exact Cert.ReferenceIdeal.RefValue.weights_eq _ _ _ _ _ _ _ _ i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
